-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16x3 : Shape := ⟨3, ![1000000, 16, 3]⟩
abbrev S48x64 : Shape := ⟨2, ![48, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x5 : Shape := ⟨2, ![32, 5]⟩
abbrev S5 : Shape := ⟨1, ![5]⟩
abbrev S_ : Shape := ⟨0, ![]⟩

class Facts : Prop where
  bcast_S_S1000000x16x3 : S_.BroadcastsInDim S1000000x16x3 (![] : Fin 0 → Fin S1000000x16x3.rank)
  reducesTo_S1000000x16x3_S_d0_1_2 : S1000000x16x3.ReducesTo [0, 1, 2] S_
  h_S_ : 0 < S_.numel
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S32x5 .f32) (main_arg8 : FVec F S5 .f32) (main_v33 : IVec S_ 1) : IVec S_ 1 :=
  let main_v34 : FVec F S32x5 .f32 := Host.absf main_arg7
  let main_cst_12 : FVec F S_ .f32 := constant S_ .f32 0x7F800000#32
  let main_v35 : FVec F S32x5 .f32 := broadcastInDim S32x5 ![] bcast_S_S32x5 main_cst_12
  let main_v36 : IVec S32x5 1 := cmpf .olt main_v34 main_v35
  let main_c_13 : IVec S_ 1 := constantI S_ 1 1#1
  let main_v37 : IVec S_ 1 := (fun x v => Host.reduce IntOp.andi x v reducesTo_S32x5_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S32x5 .f32) (main_arg8 : FVec F S5 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1000000x16x3 .f32) (main_arg1 : FVec F S48x64 .f32) (main_arg2 : FVec F S64 .f32) (main_arg3 : FVec F S64x32 .f32) (main_arg4 : FVec F S32 .f32) (main_arg5 : FVec F S32x32 .f32) (main_arg6 : FVec F S32 .f32) (main_arg7 : FVec F S32x5 .f32) (main_arg8 : FVec F S5 .f32) : IVec S_ 1 :=
  let main_v0 : FVec F S1000000x16x3 .f32 := Host.absf main_arg0
  let main_cst : FVec F S_ .f32 := constant S_ .f32 0x7F800000#32
  let main_v1 : FVec F S1000000x16x3 .f32 := broadcastInDim S1000000x16x3 ![] bcast_S_S1000000x16x3 main_cst
  let main_v2 : IVec S1000000x16x3 1 := cmpf .olt main_v0 main_v1
  let main_c : IVec S_ 1 := constantI S_ 1 1#1
  let main_v3 : IVec S_ 1 := (fun x v => Host.reduce IntOp.andi x v reducesTo_S1000000x16x3_S_d0_1_2 h_S_) main_v2 main_c
  let main_v4 : FVec F S48x64 .f32 := Host.absf main_arg1
  let main_cst_0 : FVec F S_ .f32 := constant S_ .f32 0x7F800000#32
  let main_v5 : FVec F S48x64 .f32 := broadcastInDim S48x64 ![] bcast_S_S48x64 main_cst_0
  let main_v6 : IVec S48x64 1 := cmpf .olt main_v4 main_v5
  let main_c_1 : IVec S_ 1 := constantI S_ 1 1#1
  let main_v7 : IVec S_ 1 := (fun x v => Host.reduce IntOp.andi x v reducesTo_S48x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_v13 main_v16
-- ==== Kernel.lean ====
abbrev S1000000x16x3 : Shape := ⟨3, ![1000000, 16, 3]⟩
abbrev S48x64 : Shape := ⟨2, ![48, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x5 : Shape := ⟨2, ![32, 5]⟩
abbrev S5 : Shape := ⟨1, ![5]⟩
abbrev S1000000x48 : Shape := ⟨2, ![1000000, 48]⟩
abbrev S_ : Shape := ⟨0, ![]⟩
abbrev S1x64 : Shape := ⟨2, ![1, 64]⟩
abbrev S1x32 : Shape := ⟨2, ![1, 32]⟩
abbrev S1x5 : Shape := ⟨2, ![1, 5]⟩
abbrev S1000000x5 : Shape := ⟨2, ![1000000, 5]⟩
abbrev S10000x48 : Shape := ⟨2, ![10000, 48]⟩
abbrev S10000x5 : Shape := ⟨2, ![10000, 5]⟩
abbrev S10000x64 : Shape := ⟨2, ![10000, 64]⟩
abbrev S10000x32 : Shape := ⟨2, ![10000, 32]⟩

abbrev nBuf : Space → Nat
  | .hbm => 105
  | .vmem => 12
  | .smem => 0
  | _ => 0

abbrev bufTy : (tb : Table) → Fin (tcTables nBuf tb) → BufTy
  | .hbm, ⟨0, _⟩ => ⟨S1000000x16x3, .f32⟩
  | .hbm, ⟨1, _⟩ => ⟨S48x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x5, .f32⟩
  | .hbm, ⟨8, _⟩ => ⟨S5, .f32⟩
  | .hbm, ⟨9, _⟩ => ⟨S1000000x48, .f32⟩
  | .hbm, ⟨10, _⟩ => ⟨S_, .f32⟩
  | .hbm, ⟨11, _⟩ => ⟨S48x64, .f32⟩
  | .hbm, ⟨12, _⟩ => ⟨S48x64, .f32⟩
  | .hbm, ⟨13, _⟩ => ⟨S48x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S48x64, .f32⟩
  | .hbm, ⟨18, _⟩ => ⟨S48x64, .f32⟩
  | .hbm, ⟨19, _⟩ => ⟨S_, .f32⟩
  | .hbm, ⟨20, _⟩ => ⟨S48x64, .f32⟩
  | .hbm, ⟨21, _⟩ => ⟨S48x64, .f32⟩
  | .hbm, ⟨22, _⟩ => ⟨S_, .f32⟩
  | .hbm, ⟨23, _⟩ => ⟨S48x64, .f32⟩
  | .hbm, ⟨24, _⟩ => ⟨S48x64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S_, .f32⟩
  | .hbm, ⟨42, _⟩ => ⟨S64x32, .f32⟩
  | .hbm, ⟨43, _⟩ => ⟨S64x32, .f32⟩
  | .hbm, ⟨44, _⟩ => ⟨S64x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64x32, .f32⟩
  | .hbm, ⟨49, _⟩ => ⟨S64x32, .f32⟩
  | .hbm, ⟨50, _⟩ => ⟨S_, .f32⟩
  | .hbm, ⟨51, _⟩ => ⟨S64x32, .f32⟩
  | .hbm, ⟨52, _⟩ => ⟨S64x32, .f32⟩
  | .hbm, ⟨53, _⟩ => ⟨S_, .f32⟩
  | .hbm, ⟨54, _⟩ => ⟨S64x32, .f32⟩
  | .hbm, ⟨55, _⟩ => ⟨S64x32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S1x32, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32x32, .f32⟩
  | .hbm, ⟨80, _⟩ => ⟨S32x32, .f32⟩
  | .hbm, ⟨81, _⟩ => ⟨S_, .f32⟩
  | .hbm, ⟨82, _⟩ => ⟨S32x32, .f32⟩
  | .hbm, ⟨83, _⟩ => ⟨S32x32, .f32⟩
  | .hbm, ⟨84, _⟩ => ⟨S_, .f32⟩
  | .hbm, ⟨85, _⟩ => ⟨S32x32, .f32⟩
  | .hbm, ⟨86, _⟩ => ⟨S32x32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S_, .f32⟩
  | .hbm, ⟨100, _⟩ => ⟨S32, .f32⟩
  | .hbm, ⟨101, _⟩ => ⟨S32, .f32⟩
  | .hbm, ⟨102, _⟩ => ⟨S1x32, .f32⟩
  | .hbm, ⟨103, _⟩ => ⟨S1x5, .f32⟩
  | .hbm, ⟨104, _⟩ => ⟨S1000000x5, .f32⟩
  | .local _ .vmem, ⟨0, _⟩ => ⟨S10000x48, .f32⟩
  | .local _ .vmem, ⟨1, _⟩ => ⟨S10000x48, .f32⟩
  | .local _ .vmem, ⟨2, _⟩ => ⟨S48x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x5, .f32⟩
  | .local _ .vmem, ⟨9, _⟩ => ⟨S1x5, .f32⟩
  | .local _ .vmem, ⟨10, _⟩ => ⟨S10000x5, .f32⟩
  | .local _ .vmem, ⟨11, _⟩ => ⟨S10000x5, .f32⟩
  | _, _ => ⟨S1000000x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_cst_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_4 : Ref sig .tc := ⟨.hbm, 29, rfl⟩
abbrev main_cst_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v10 : Ref sig .tc := ⟨.hbm, 36, rfl⟩
abbrev main_cst_6 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_7 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_8 : Ref sig .tc := ⟨.hbm, 45, rfl⟩
abbrev main_cst_9 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v17 : Ref sig .tc := ⟨.hbm, 52, rfl⟩
abbrev main_cst_10 : Ref sig .tc := ⟨.hbm, 53, rfl⟩
abbrev main_v18 : Ref sig .tc := ⟨.hbm, 54, rfl⟩
abbrev main_v19 : Ref sig .tc := ⟨.hbm, 55, rfl⟩
abbrev main_cst_11 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_12 : Ref sig .tc := ⟨.hbm, 60, rfl⟩
abbrev main_cst_13 : Ref sig .tc := ⟨.hbm, 61, rfl⟩
abbrev main_call7_v0 : Ref sig .tc := ⟨.hbm, 62, rfl⟩
abbrev main_call7_v1 : Ref sig .tc := ⟨.hbm, 63, rfl⟩
abbrev main_call7_v2 : Ref sig .tc := ⟨.hbm, 64, rfl⟩
abbrev main_call7_v3 : Ref sig .tc := ⟨.hbm, 65, rfl⟩
abbrev main_call7_v4 : Ref sig .tc := ⟨.hbm, 66, rfl⟩
abbrev main_v23 : Ref sig .tc := ⟨.hbm, 67, rfl⟩
abbrev main_cst_14 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_15 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_16 : Ref sig .tc := ⟨.hbm, 76, rfl⟩
abbrev main_cst_17 : Ref sig .tc := ⟨.hbm, 77, rfl⟩
abbrev main_call9_v0 : Ref sig .tc := ⟨.hbm, 78, rfl⟩
abbrev main_call9_v1 : Ref sig .tc := ⟨.hbm, 79, rfl⟩
abbrev main_call9_v2 : Ref sig .tc := ⟨.hbm, 80, rfl⟩
abbrev main_call9_v3 : Ref sig .tc := ⟨.hbm, 81, rfl⟩
abbrev main_call9_v4 : Ref sig .tc := ⟨.hbm, 82, rfl⟩
abbrev main_v30 : Ref sig .tc := ⟨.hbm, 83, rfl⟩
abbrev main_cst_18 : Ref sig .tc := ⟨.hbm, 84, rfl⟩
abbrev main_v31 : Ref sig .tc := ⟨.hbm, 85, rfl⟩
abbrev main_v32 : Ref sig .tc := ⟨.hbm, 86, rfl⟩
abbrev main_cst_19 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_20 : Ref sig .tc := ⟨.hbm, 91, rfl⟩
abbrev main_cst_21 : Ref sig .tc := ⟨.hbm, 92, rfl⟩
abbrev main_call11_v0 : Ref sig .tc := ⟨.hbm, 93, rfl⟩
abbrev main_call11_v1 : Ref sig .tc := ⟨.hbm, 94, rfl⟩
abbrev main_call11_v2 : Ref sig .tc := ⟨.hbm, 95, rfl⟩
abbrev main_call11_v3 : Ref sig .tc := ⟨.hbm, 96, rfl⟩
abbrev main_call11_v4 : Ref sig .tc := ⟨.hbm, 97, rfl⟩
abbrev main_v36 : Ref sig .tc := ⟨.hbm, 98, rfl⟩
abbrev main_cst_22 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1000000x16x3_S1000000x48 : S1000000x16x3.ShapeCasts S1000000x48
  bcast_S_S48x64 : S_.BroadcastsInDim S48x64 (![] : Fin 0 → Fin S48x64.rank)
  bcast_S_S64 : S_.BroadcastsInDim S64 (![] : Fin 0 → Fin S64.rank)
  shapeCasts_S64_S1x64 : S64.ShapeCasts S1x64
  bcast_S_S64x32 : S_.BroadcastsInDim S64x32 (![] : Fin 0 → Fin S64x32.rank)
  bcast_S_S32 : S_.BroadcastsInDim S32 (![] : Fin 0 → Fin S32.rank)
  shapeCasts_S32_S1x32 : S32.ShapeCasts S1x32
  bcast_S_S32x32 : S_.BroadcastsInDim S32x32 (![] : Fin 0 → Fin S32x32.rank)
  shapeCasts_S5_S1x5 : S5.ShapeCasts S1x5
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S48x64_S48x64_0_0 : ∀ a, (![0, 0] : Fin 2 → Nat) a + S48x64.size a ≤ S48x64.size a
  h_S48x64 : 0 < S48x64.numel
  shapeCasts_S48x64_S48x64 : S48x64.ShapeCasts S48x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x5_S32x5_0_0 : ∀ a, (![0, 0] : Fin 2 → Nat) a + S32x5.size a ≤ S32x5.size a
  h_S32x5 : 0 < S32x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  dot_S10000x48_S48x64_S10000x64_1_0_0_1_n_n_wf : DotDims.WF S10000x48 S48x64 S10000x64 [1] [0] [0] [1] [] []
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  dot_S10000x32_S32x5_S10000x5_1_0_0_1_n_n_wf : DotDims.WF S10000x32 S32x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x48.size a ≤ S1000000x48.size a
  hwx0_0 : ∀ i : grid0.Coords, EltTy.bits .f32 = 32 ∨ (Rect.block (s := S1000000x48) S10000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x64.size a ≤ S48x64.size a
  hwx0_1 : ∀ i : grid0.Coords, EltTy.bits .f32 = 32 ∨ (Rect.block (s := S48x64) S48x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x5.size a ≤ S32x5.size a
  hwx0_7 : ∀ i : grid0.Coords, EltTy.bits .f32 = 32 ∨ (Rect.block (s := S32x5) S32x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x5.size a ≤ S1x5.size a
  hwx0_8 : ∀ i : grid0.Coords, EltTy.bits .f32 = 32 ∨ (Rect.block (s := S1x5) S1x5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x5.size a ≤ S1000000x5.size a
  hwx0_9 : ∀ i : grid0.Coords, EltTy.bits .f32 = 32 ∨ (Rect.block (s := S1000000x5) S10000x5.size (cc0_transform_9 i) (hinb0_9 i)).WholeWords (EltTy.packing .f32)

variable [Facts₀]

def dot_S10000x48_S48x64_S10000x64_1_0_0_1_n_n : DotDims S10000x48 S48x64 S10000x64 where
  lhsContracting := [1]
  rhsContracting := [0]
  lhsNonContracting := [0]
  rhsNonContracting := [1]
  lhsBatch := []
  rhsBatch := []
  wf := dot_S10000x48_S48x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x5_S10000x5_1_0_0_1_n_n : DotDims S10000x32 S32x5 S10000x5 where
  lhsContracting := [1]
  rhsContracting := [0]
  lhsNonContracting := [0]
  rhsNonContracting := [1]
  lhsBatch := []
  rhsBatch := []
  wf := dot_S10000x32_S32x5_S10000x5_1_0_0_1_n_n_wf

abbrev win0_0 : Pipeline.Window sig grid0 :=
  Pipeline.Window.ofSpec (Memref.whole main_v0) S10000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S48x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S10000x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x16x3 : Shape := ⟨3, ![1000000, 16, 3]⟩
abbrev S48x64 : Shape := ⟨2, ![48, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x5 : Shape := ⟨2, ![32, 5]⟩
abbrev S5 : Shape := ⟨1, ![5]⟩
abbrev S1000000x48 : Shape := ⟨2, ![1000000, 48]⟩
abbrev S_ : Shape := ⟨0, ![]⟩
abbrev S1000000x64 : Shape := ⟨2, ![1000000, 64]⟩
abbrev S1x64 : Shape := ⟨2, ![1, 64]⟩
abbrev S1000000x32 : Shape := ⟨2, ![1000000, 32]⟩
abbrev S1x32 : Shape := ⟨2, ![1, 32]⟩
abbrev S1000000x5 : Shape := ⟨2, ![1000000, 5]⟩
abbrev S1x5 : Shape := ⟨2, ![1, 5]⟩

abbrev nBuf : Space → Nat
  | .hbm => 179
  | .vmem => 0
  | .smem => 0
  | _ => 0

abbrev hbmTy0_0 (i : Nat) : BufTy := match i % 128 with
  | 0 => ⟨S1000000x16x3, .f32⟩
  | 1 => ⟨S48x64, .f32⟩
  | 2 => ⟨S64, .f32⟩
  | 3 => ⟨S64x32, .f32⟩
  | 4 => ⟨S32, .f32⟩
  | 5 => ⟨S32x32, .f32⟩
  | 6 => ⟨S32, .f32⟩
  | 7 => ⟨S32x5, .f32⟩
  | 8 => ⟨S5, .f32⟩
  | 9 => ⟨S1000000x48, .f32⟩
  | 10 => ⟨S_, .f32⟩
  | 11 => ⟨S48x64, .f32⟩
  | 12 => ⟨S48x64, .f32⟩
  | 13 => ⟨S48x64, .f32⟩
  | 14 => ⟨S_, .f32⟩
  | 15 => ⟨S_, .f32⟩
  | 16 => ⟨S_, .f32⟩
  | 17 => ⟨S48x64, .f32⟩
  | 18 => ⟨S48x64, .f32⟩
  | 19 => ⟨S_, .f32⟩
  | 20 => ⟨S48x64, .f32⟩
  | 21 => ⟨S48x64, .f32⟩
  | 22 => ⟨S_, .f32⟩
  | 23 => ⟨S48x64, .f32⟩
  | 24 => ⟨S48x64, .f32⟩
  | 25 => ⟨S48x64, .f32⟩
  | 26 => ⟨S48x64, .f32⟩
  | 27 => ⟨S1000000x64, .f32⟩
  | 28 => ⟨S_, .f32⟩
  | 29 => ⟨S64, .f32⟩
  | 30 => ⟨S64, .f32⟩
  | 31 => ⟨S64, .f32⟩
  | 32 => ⟨S_, .f32⟩
  | 33 => ⟨S_, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S64, .f32⟩
  | 45 => ⟨S1x64, .f32⟩
  | 46 => ⟨S1000000x64, .f32⟩
  | 47 => ⟨S1000000x64, .f32⟩
  | 48 => ⟨S_, .f32⟩
  | 49 => ⟨S1000000x64, .f32⟩
  | 50 => ⟨S1000000x64, .f32⟩
  | 51 => ⟨S1000000x64, .f32⟩
  | 52 => ⟨S_, .f32⟩
  | 53 => ⟨S_, .f32⟩
  | 54 => ⟨S_, .f32⟩
  | 55 => ⟨S1000000x64, .f32⟩
  | 56 => ⟨S1000000x64, .f32⟩
  | 57 => ⟨S_, .f32⟩
  | 58 => ⟨S1000000x64, .f32⟩
  | 59 => ⟨S1000000x64, .f32⟩
  | 60 => ⟨S_, .f32⟩
  | 61 => ⟨S1000000x64, .f32⟩
  | 62 => ⟨S1000000x64, .f32⟩
  | 63 => ⟨S1000000x64, .f32⟩
  | 64 => ⟨S1000000x64, .f32⟩
  | 65 => ⟨S_, .f32⟩
  | 66 => ⟨S64x32, .f32⟩
  | 67 => ⟨S64x32, .f32⟩
  | 68 => ⟨S64x32, .f32⟩
  | 69 => ⟨S_, .f32⟩
  | 70 => ⟨S_, .f32⟩
  | 71 => ⟨S_, .f32⟩
  | 72 => ⟨S64x32, .f32⟩
  | 73 => ⟨S64x32, .f32⟩
  | 74 => ⟨S_, .f32⟩
  | 75 => ⟨S64x32, .f32⟩
  | 76 => ⟨S64x32, .f32⟩
  | 77 => ⟨S_, .f32⟩
  | 78 => ⟨S64x32, .f32⟩
  | 79 => ⟨S64x32, .f32⟩
  | 80 => ⟨S64x32, .f32⟩
  | 81 => ⟨S64x32, .f32⟩
  | 82 => ⟨S1000000x32, .f32⟩
  | 83 => ⟨S_, .f32⟩
  | 84 => ⟨S32, .f32⟩
  | 85 => ⟨S32, .f32⟩
  | 86 => ⟨S32, .f32⟩
  | 87 => ⟨S_, .f32⟩
  | 88 => ⟨S_, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S32, .f32⟩
  | 99 => ⟨S32, .f32⟩
  | 100 => ⟨S1x32, .f32⟩
  | 101 => ⟨S1000000x32, .f32⟩
  | 102 => ⟨S1000000x32, .f32⟩
  | 103 => ⟨S_, .f32⟩
  | 104 => ⟨S1000000x32, .f32⟩
  | 105 => ⟨S1000000x32, .f32⟩
  | 106 => ⟨S1000000x32, .f32⟩
  | 107 => ⟨S_, .f32⟩
  | 108 => ⟨S_, .f32⟩
  | 109 => ⟨S_, .f32⟩
  | 110 => ⟨S1000000x32, .f32⟩
  | 111 => ⟨S1000000x32, .f32⟩
  | 112 => ⟨S_, .f32⟩
  | 113 => ⟨S1000000x32, .f32⟩
  | 114 => ⟨S1000000x32, .f32⟩
  | 115 => ⟨S_, .f32⟩
  | 116 => ⟨S1000000x32, .f32⟩
  | 117 => ⟨S1000000x32, .f32⟩
  | 118 => ⟨S1000000x32, .f32⟩
  | 119 => ⟨S1000000x32, .f32⟩
  | 120 => ⟨S_, .f32⟩
  | 121 => ⟨S32x32, .f32⟩
  | 122 => ⟨S32x32, .f32⟩
  | 123 => ⟨S32x32, .f32⟩
  | 124 => ⟨S_, .f32⟩
  | 125 => ⟨S_, .f32⟩
  | 126 => ⟨S_, .f32⟩
  | 127 => ⟨S32x32, .f32⟩
  | _ => ⟨S1000000x16x3, .f32⟩

abbrev hbmTy0_1 (i : Nat) : BufTy := match i % 128 with
  | 0 => ⟨S32x32, .f32⟩
  | 1 => ⟨S_, .f32⟩
  | 2 => ⟨S32x32, .f32⟩
  | 3 => ⟨S32x32, .f32⟩
  | 4 => ⟨S_, .f32⟩
  | 5 => ⟨S32x32, .f32⟩
  | 6 => ⟨S32x32, .f32⟩
  | 7 => ⟨S32x32, .f32⟩
  | 8 => ⟨S32x32, .f32⟩
  | 9 => ⟨S1000000x32, .f32⟩
  | 10 => ⟨S_, .f32⟩
  | 11 => ⟨S32, .f32⟩
  | 12 => ⟨S32, .f32⟩
  | 13 => ⟨S32, .f32⟩
  | 14 => ⟨S_, .f32⟩
  | 15 => ⟨S_, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S32, .f32⟩
  | 26 => ⟨S32, .f32⟩
  | 27 => ⟨S1x32, .f32⟩
  | 28 => ⟨S1000000x32, .f32⟩
  | 29 => ⟨S1000000x32, .f32⟩
  | 30 => ⟨S_, .f32⟩
  | 31 => ⟨S1000000x32, .f32⟩
  | 32 => ⟨S1000000x32, .f32⟩
  | 33 => ⟨S1000000x32, .f32⟩
  | 34 => ⟨S_, .f32⟩
  | 35 => ⟨S_, .f32⟩
  | 36 => ⟨S_, .f32⟩
  | 37 => ⟨S1000000x32, .f32⟩
  | 38 => ⟨S1000000x32, .f32⟩
  | 39 => ⟨S_, .f32⟩
  | 40 => ⟨S1000000x32, .f32⟩
  | 41 => ⟨S1000000x32, .f32⟩
  | 42 => ⟨S_, .f32⟩
  | 43 => ⟨S1000000x32, .f32⟩
  | 44 => ⟨S1000000x32, .f32⟩
  | 45 => ⟨S1000000x32, .f32⟩
  | 46 => ⟨S1000000x32, .f32⟩
  | 47 => ⟨S1000000x5, .f32⟩
  | 48 => ⟨S1x5, .f32⟩
  | 49 => ⟨S1000000x5, .f32⟩
  | 50 => ⟨S1000000x5, .f32⟩
  | _ => ⟨S1000000x16x3, .f32⟩

abbrev hbmTy (i : Nat) : BufTy := match i / 128 with
  | 0 => hbmTy0_0 i
  | 1 => hbmTy0_1 i
  | _ => ⟨S1000000x16x3, .f32⟩

abbrev bufTy : (tb : Table) → Fin (tcTables nBuf tb) → BufTy
  | .hbm, ⟨i, _⟩ => hbmTy i
  | _, _ => ⟨S1000000x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v13 : Ref sig .tc := ⟨.hbm, 39, rfl⟩
abbrev main_cst_6 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_7 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_8 : Ref sig .tc := ⟨.hbm, 52, rfl⟩
abbrev main_cst_9 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v24 : Ref sig .tc := ⟨.hbm, 59, rfl⟩
abbrev main_cst_10 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_11 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_12 : Ref sig .tc := ⟨.hbm, 69, rfl⟩
abbrev main_cst_13 : Ref sig .tc := ⟨.hbm, 70, rfl⟩
abbrev main_call7_v0 : Ref sig .tc := ⟨.hbm, 71, rfl⟩
abbrev main_call7_v1 : Ref sig .tc := ⟨.hbm, 72, rfl⟩
abbrev main_call7_v2 : Ref sig .tc := ⟨.hbm, 73, rfl⟩
abbrev main_call7_v3 : Ref sig .tc := ⟨.hbm, 74, rfl⟩
abbrev main_call7_v4 : Ref sig .tc := ⟨.hbm, 75, rfl⟩
abbrev main_v32 : Ref sig .tc := ⟨.hbm, 76, rfl⟩
abbrev main_cst_14 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_15 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_16 : Ref sig .tc := ⟨.hbm, 87, rfl⟩
abbrev main_cst_17 : Ref sig .tc := ⟨.hbm, 88, rfl⟩
abbrev main_call9_v0 : Ref sig .tc := ⟨.hbm, 89, rfl⟩
abbrev main_call9_v1 : Ref sig .tc := ⟨.hbm, 90, rfl⟩
abbrev main_call9_v2 : Ref sig .tc := ⟨.hbm, 91, rfl⟩
abbrev main_call9_v3 : Ref sig .tc := ⟨.hbm, 92, rfl⟩
abbrev main_call9_v4 : Ref sig .tc := ⟨.hbm, 93, rfl⟩
abbrev main_v41 : Ref sig .tc := ⟨.hbm, 94, rfl⟩
abbrev main_cst_18 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_19 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_20 : Ref sig .tc := ⟨.hbm, 107, rfl⟩
abbrev main_cst_21 : Ref sig .tc := ⟨.hbm, 108, rfl⟩
abbrev main_call11_v0 : Ref sig .tc := ⟨.hbm, 109, rfl⟩
abbrev main_call11_v1 : Ref sig .tc := ⟨.hbm, 110, rfl⟩
abbrev main_call11_v2 : Ref sig .tc := ⟨.hbm, 111, rfl⟩
abbrev main_call11_v3 : Ref sig .tc := ⟨.hbm, 112, rfl⟩
abbrev main_call11_v4 : Ref sig .tc := ⟨.hbm, 113, rfl⟩
abbrev main_v52 : Ref sig .tc := ⟨.hbm, 114, rfl⟩
abbrev main_cst_22 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_23 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_24 : Ref sig .tc := ⟨.hbm, 124, rfl⟩
abbrev main_cst_25 : Ref sig .tc := ⟨.hbm, 125, rfl⟩
abbrev main_call13_v0 : Ref sig .tc := ⟨.hbm, 126, rfl⟩
abbrev main_call13_v1 : Ref sig .tc := ⟨.hbm, 127, rfl⟩
abbrev main_call13_v2 : Ref sig .tc := ⟨.hbm, 128, rfl⟩
abbrev main_call13_v3 : Ref sig .tc := ⟨.hbm, 129, rfl⟩
abbrev main_call13_v4 : Ref sig .tc := ⟨.hbm, 130, rfl⟩
abbrev main_v60 : Ref sig .tc := ⟨.hbm, 131, rfl⟩
abbrev main_cst_26 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_27 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_28 : Ref sig .tc := ⟨.hbm, 142, rfl⟩
abbrev main_cst_29 : Ref sig .tc := ⟨.hbm, 143, rfl⟩
abbrev main_call15_v0 : Ref sig .tc := ⟨.hbm, 144, rfl⟩
abbrev main_call15_v1 : Ref sig .tc := ⟨.hbm, 145, rfl⟩
abbrev main_call15_v2 : Ref sig .tc := ⟨.hbm, 146, rfl⟩
abbrev main_call15_v3 : Ref sig .tc := ⟨.hbm, 147, rfl⟩
abbrev main_call15_v4 : Ref sig .tc := ⟨.hbm, 148, rfl⟩
abbrev main_v69 : Ref sig .tc := ⟨.hbm, 149, rfl⟩
abbrev main_cst_30 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_31 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_32 : Ref sig .tc := ⟨.hbm, 162, rfl⟩
abbrev main_cst_33 : Ref sig .tc := ⟨.hbm, 163, rfl⟩
abbrev main_call17_v0 : Ref sig .tc := ⟨.hbm, 164, rfl⟩
abbrev main_call17_v1 : Ref sig .tc := ⟨.hbm, 165, rfl⟩
abbrev main_call17_v2 : Ref sig .tc := ⟨.hbm, 166, rfl⟩
abbrev main_call17_v3 : Ref sig .tc := ⟨.hbm, 167, rfl⟩
abbrev main_call17_v4 : Ref sig .tc := ⟨.hbm, 168, rfl⟩
abbrev main_v80 : Ref sig .tc := ⟨.hbm, 169, rfl⟩
abbrev main_cst_34 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩

abbrev nD : Nat := 1
abbrev τ : Topo := Topo.v7x

variable {F : FTy → Type} [FloatOps F]

class Facts₀ : Prop where
  shapeCasts_S1000000x16x3_S1000000x48 : S1000000x16x3.ShapeCasts S1000000x48
  bcast_S_S48x64 : S_.BroadcastsInDim S48x64 (![] : Fin 0 → Fin S48x64.rank)
  bcast_S_S64 : S_.BroadcastsInDim S64 (![] : Fin 0 → Fin S64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S64x32 : S_.BroadcastsInDim S64x32 (![] : Fin 0 → Fin S64x32.rank)
  bcast_S_S32 : S_.BroadcastsInDim S32 (![] : Fin 0 → Fin S32.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S_S32x32 : S_.BroadcastsInDim S32x32 (![] : Fin 0 → Fin S32x32.rank)
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  dot_S1000000x48_S48x64_S1000000x64_1_0_0_1_n_n_wf : DotDims.WF S1000000x48 S48x64 S1000000x64 [1] [0] [0] [1] [] []
  dot_S1000000x64_S64x32_S1000000x32_1_0_0_1_n_n_wf : DotDims.WF S1000000x64 S64x32 S1000000x32 [1] [0] [0] [1] [] []
  dot_S1000000x32_S32x32_S1000000x32_1_0_0_1_n_n_wf : DotDims.WF S1000000x32 S32x32 S1000000x32 [1] [0] [0] [1] [] []
  dot_S1000000x32_S32x5_S1000000x5_1_0_0_1_n_n_wf : DotDims.WF S1000000x32 S32x5 S1000000x5 [1] [0] [0] [1] [] []

variable [Facts₀]

def dot_S1000000x48_S48x64_S1000000x64_1_0_0_1_n_n : DotDims S1000000x48 S48x64 S1000000x64 where
  lhsContracting := [1]
  rhsContracting := [0]
  lhsNonContracting := [0]
  rhsNonContracting := [1]
  lhsBatch := []
  rhsBatch := []
  wf := dot_S1000000x48_S48x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x5_S1000000x5_1_0_0_1_n_n : DotDims S1000000x32 S32x5 S1000000x5 where
  lhsContracting := [1]
  rhsContracting := [0]
  lhsNonContracting := [0]
  rhsNonContracting := [1]
  lhsBatch := []
  rhsBatch := []
  wf := dot_S1000000x32_S32x5_S1000000x5_1_0_0_1_n_n_wf

class Facts : Prop extends Facts₀ where

variable [Facts]
-- ==== Proof.LibSteQuant.lean ====
/-
  Straight-through quantizers on the extended reals.

  A fake-quantizer maps `v` to `clamp (roundeven (v · c)) / c`; a reference that routes it through a
  straight-through estimator computes `v + (q v − v)` instead. On the extended reals the two agree exactly
  where `v` is a real number (at `±∞` the difference `q v − v` is infinite and the sum is not `q v`), and
  the quantizer's value is then a real number as well. Sums of products of reals are reals, so realness
  travels through a dense layer, and a whole stack of quantized dense layers computed with the
  straight-through form equals the stack computed with the plain quantizer, provided every input is real.
-/
import Idealize.ShloMosaic.PureOps.Ideal
import Mathlib.Algebra.BigOperators.Group.Finset.Basic

noncomputable section

namespace Cert.SteQuant

open Idealize.ShloMosaic
open scoped BigOperators

/-- An extended real that is a real number. -/
def IsReal (v : EReal) : Prop := ∃ r : ℝ, v = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨x, rfl⟩ := ha; obtain ⟨y, rfl⟩ := hb
  exact ⟨x + y, (EReal.coe_add x y).symm⟩

theorem IsReal.mul {a b : EReal} (ha : IsReal a) (hb : IsReal b) : IsReal (a * b) := by
  obtain ⟨x, rfl⟩ := ha; obtain ⟨y, rfl⟩ := hb
  exact ⟨x * y, (EReal.coe_mul x y).symm⟩

theorem IsReal.sum {K : Type} (s : Finset K) (f : K → EReal) (h : ∀ k ∈ s, IsReal (f k)) : IsReal (∑ k ∈ s, f k) :=
  Finset.sum_induction f IsReal (fun _ _ ha hb => ha.add hb) IsReal.zero h

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- The quantizer with scale `c` and clamp bounds `lo`, `hi` (in units of `1/c`): scale, round to the nearest
    integer with ties to even, clamp, scale back. -/
def quant (c lo hi v : EReal) : EReal :=
  Ideal.div (min hi (max lo (Ideal.liftRound Ideal.roundHalfEven (v * c)))) c

/-- The same value routed through a straight-through estimator: `v + (q v − v)`. -/
def ste (c lo hi v : EReal) : EReal := v + (quant c lo hi v - v)

/-- At a real argument, with real nonzero scale and real bounds, the quantizer's value is a real number. -/
theorem quant_real {c lo hi v : EReal} (hc : IsReal c) (hc0 : c ≠ 0) (hlo : IsReal lo) (hhi : IsReal hi) (hv : IsReal v) :
    IsReal (quant c lo hi v) := by
  obtain ⟨c, rfl⟩ := hc; obtain ⟨lo, rfl⟩ := hlo; obtain ⟨hi, rfl⟩ := hhi; obtain ⟨v, rfl⟩ := hv
  have hc' : c ≠ 0 := fun h => hc0 (by rw [h]; rfl)
  unfold quant
  rw [← EReal.coe_mul, Ideal.liftRound_coe, coe_max, coe_min, Ideal.div_coe hc', ← EReal.coe_mul]
  exact ⟨_, rfl⟩

/-- At a real argument the straight-through form is the quantizer itself: `v + (q − v) = q` among reals. -/
theorem ste_eq_quant {c lo hi v : EReal} (hc : IsReal c) (hc0 : c ≠ 0) (hlo : IsReal lo) (hhi : IsReal hi) (hv : IsReal v) :
    ste c lo hi v = quant c lo hi v := by
  obtain ⟨q, hq⟩ := quant_real hc hc0 hlo hhi hv
  obtain ⟨r, rfl⟩ := hv
  unfold ste
  rw [hq, ← EReal.coe_sub, ← EReal.coe_add, add_sub_cancel]

/-- One output of a dense layer: the inner product of the activations with a weight column, plus the bias. -/
def dense {K : Type} [Fintype K] (a w : K → EReal) (b : EReal) : EReal := (∑ k, a k * w k) + b

theorem dense_real {K : Type} [Fintype K] {a w : K → EReal} {b : EReal} (ha : ∀ k, IsReal (a k)) (hw : ∀ k, IsReal (w k))
    (hb : IsReal b) : IsReal (dense a w b) :=
  (IsReal.sum _ _ fun k _ => (ha k).mul (hw k)).add hb

/-- Three quantized dense layers and a plain one, at one row `x` and one output column `j`: `qw` quantizes weights
    and biases, `qa` quantizes activations. -/
def mlp {K0 K1 K2 K3 N : Type} [Fintype K0] [Fintype K1] [Fintype K2] [Fintype K3] (qw qa : EReal → EReal)
    (x : K0 → EReal) (w1 : K0 → K1 → EReal) (b1 : K1 → EReal) (w2 : K1 → K2 → EReal) (b2 : K2 → EReal)
    (w3 : K2 → K3 → EReal) (b3 : K3 → EReal) (wo : K3 → N → EReal) (bo : N → EReal) (j : N) : EReal :=
  dense (fun k3 => qa (dense (fun k2 => qa (dense (fun k1 => qa (dense x (fun k => qw (w1 k k1)) (qw (b1 k1))))
    (fun k => qw (w2 k k2)) (qw (b2 k2)))) (fun k => qw (w3 k k3)) (qw (b3 k3)))) (fun k => wo k j) (bo j)

/-- A quantized dense layer computed with straight-through quantizers equals the one computed with the plain
    quantizers, and its activation is real, when the incoming activations, weights and bias are real. -/
theorem layer_eq {K : Type} [Fintype K] {cw low hiw ca loa hia : EReal}
    (hcw : IsReal cw) (hcw0 : cw ≠ 0) (hlow : IsReal low) (hhiw : IsReal hiw)
    (hca : IsReal ca) (hca0 : ca ≠ 0) (hloa : IsReal loa) (hhia : IsReal hia)
    {a a' w : K → EReal} {b : EReal} (haa : a' = a) (ha : ∀ k, IsReal (a k)) (hw : ∀ k, IsReal (w k)) (hb : IsReal b) :
    ste ca loa hia (dense a' (fun k => ste cw low hiw (w k)) (ste cw low hiw b))
        = quant ca loa hia (dense a (fun k => quant cw low hiw (w k)) (quant cw low hiw b))
      ∧ IsReal (quant ca loa hia (dense a (fun k => quant cw low hiw (w k)) (quant cw low hiw b))) := by
  subst haa
  have e1 : (fun k => ste cw low hiw (w k)) = fun k => quant cw low hiw (w k) :=
    funext fun k => ste_eq_quant hcw hcw0 hlow hhiw (hw k)
  have hd : IsReal (dense a' (fun k => quant cw low hiw (w k)) (quant cw low hiw b)) :=
    dense_real ha (fun k => quant_real hcw hcw0 hlow hhiw (hw k)) (quant_real hcw hcw0 hlow hhiw hb)
  rw [e1, ste_eq_quant hcw hcw0 hlow hhiw hb, ste_eq_quant hca hca0 hloa hhia hd]
  exact ⟨rfl, quant_real hca hca0 hloa hhia hd⟩

/-- The whole stack: with every input real, the straight-through stack is the plainly quantized stack. -/
theorem mlp_ste_eq {K0 K1 K2 K3 N : Type} [Fintype K0] [Fintype K1] [Fintype K2] [Fintype K3] {cw low hiw ca loa hia : EReal}
    (hcw : IsReal cw) (hcw0 : cw ≠ 0) (hlow : IsReal low) (hhiw : IsReal hiw)
    (hca : IsReal ca) (hca0 : ca ≠ 0) (hloa : IsReal loa) (hhia : IsReal hia)
    (x : K0 → EReal) (w1 : K0 → K1 → EReal) (b1 : K1 → EReal) (w2 : K1 → K2 → EReal) (b2 : K2 → EReal)
    (w3 : K2 → K3 → EReal) (b3 : K3 → EReal) (wo : K3 → N → EReal) (bo : N → EReal) (j : N)
    (hx : ∀ k, IsReal (x k)) (hw1 : ∀ k j, IsReal (w1 k j)) (hb1 : ∀ j, IsReal (b1 j)) (hw2 : ∀ k j, IsReal (w2 k j))
    (hb2 : ∀ j, IsReal (b2 j)) (hw3 : ∀ k j, IsReal (w3 k j)) (hb3 : ∀ j, IsReal (b3 j)) :
    mlp (ste cw low hiw) (ste ca loa hia) x w1 b1 w2 b2 w3 b3 wo bo j
      = mlp (quant cw low hiw) (quant ca loa hia) x w1 b1 w2 b2 w3 b3 wo bo j := by
  have l1 : ∀ k1, _ := fun k1 => layer_eq hcw hcw0 hlow hhiw hca hca0 hloa hhia (a := x) (a' := x) (w := fun k => w1 k k1)
    (b := b1 k1) rfl hx (fun k => hw1 k k1) (hb1 k1)
  have e1 := funext fun k1 => (l1 k1).1
  have l2 : ∀ k2, _ := fun k2 => layer_eq hcw hcw0 hlow hhiw hca hca0 hloa hhia (w := fun k => w2 k k2)
    (b := b2 k2) e1 (fun k1 => (l1 k1).2) (fun k => hw2 k k2) (hb2 k2)
  have e2 := funext fun k2 => (l2 k2).1
  have l3 : ∀ k3, _ := fun k3 => layer_eq hcw hcw0 hlow hhiw hca hca0 hloa hhia (w := fun k => w3 k k3)
    (b := b3 k3) e2 (fun k2 => (l2 k2).2) (fun k => hw3 k k3) (hb3 k3)
  have e3 := funext fun k3 => (l3 k3).1
  unfold mlp
  rw [e3]

end Cert.SteQuant

end
-- ==== Proof.Spec.lean ====
/-
  What both programs compute, as one function of the nine argument arrays.

  Row `r` of the input `x[B,16,3]`, flattened to 48 features, goes through three dense layers whose weights and
  biases are fake-quantized to the grid 1/128 (clamped to [-128, 127]/128) and whose activations are fake-quantized
  to the grid 1/256 (clamped to [0, 255]/256), then through a plain dense layer with `wout`, `bout`. The kernel
  applies the quantizers directly; the reference routes each through a straight-through estimator. With every
  argument entry a real number the two agree (LibSteQuant).
-/
import proofs.«124545_j53884659695675_2_alg».proof.Proof.LibSteQuant
import Idealize.ShloMosaic.Lib.ValueIdx

noncomputable section

namespace Cert.MlpSpec

open Idealize.ShloMosaic Idealize.ShloMosaic.ValueIdx Cert.SteQuant

/-- The literals of the two quantizers: 128, -128, 127 (weights and biases) and 256, 0, 255 (activations). -/
abbrev c128 : EReal := Ideal.ofBits .f32 0x43000000#32
abbrev lo128 : EReal := Ideal.ofBits .f32 0xC3000000#32
abbrev hi127 : EReal := Ideal.ofBits .f32 0x42FE0000#32
abbrev c256 : EReal := Ideal.ofBits .f32 0x43800000#32
abbrev lo0 : EReal := Ideal.ofBits .f32 0x00000000#32
abbrev hi255 : EReal := Ideal.ofBits .f32 0x437F0000#32

theorem c128_eq : c128 = ((128 : ℝ) : EReal) := by
  simp [c128, Ideal.ofBits, Ideal.ieee]; rw [← EReal.coe_mul]; norm_num
theorem lo128_eq : lo128 = ((-128 : ℝ) : EReal) := by
  simp [lo128, Ideal.ofBits, Ideal.ieee]; rw [← EReal.coe_mul]; norm_num
theorem hi127_eq : hi127 = ((127 : ℝ) : EReal) := by
  simp [hi127, Ideal.ofBits, Ideal.ieee]; rw [← EReal.coe_mul]; norm_num
theorem c256_eq : c256 = ((256 : ℝ) : EReal) := by
  simp [c256, Ideal.ofBits, Ideal.ieee]; rw [← EReal.coe_mul]; norm_num
theorem lo0_eq : lo0 = ((0 : ℝ) : EReal) := by
  simp [lo0, Ideal.ofBits, Ideal.ieee]
theorem hi255_eq : hi255 = ((255 : ℝ) : EReal) := by
  simp [hi255, Ideal.ofBits, Ideal.ieee]; rw [← EReal.coe_mul]; norm_num

theorem c128_ne : c128 ≠ 0 := by
  rw [c128_eq]; exact_mod_cast (by norm_num : (128 : ℝ) ≠ 0)
theorem c256_ne : c256 ≠ 0 := by
  rw [c256_eq]; exact_mod_cast (by norm_num : (256 : ℝ) ≠ 0)

/-- The weight / bias quantizer and the activation quantizer, plain and straight-through. -/
abbrev qW : EReal → EReal := quant c128 lo128 hi127
abbrev qA : EReal → EReal := quant c256 lo0 hi255
abbrev sW : EReal → EReal := ste c128 lo128 hi127
abbrev sA : EReal → EReal := ste c256 lo0 hi255

/-- Feature `k` of row `r` of `x[B,16,3]` flattened row-major to `[B,48]`: the entry `(r, k / 3, k % 3)`. -/
def xrow (x : (⟨3, ![1000000, 16, 3]⟩ : Shape).Idx → EReal) (r : Fin 1000000) (k : Fin 48) : EReal :=
  x (ix3 r ⟨k.val / 3, by have := k.isLt; omega⟩ ⟨k.val % 3, by omega⟩)

/-- Output `(r, j)`, with weight quantizer `qw` and activation quantizer `qa`. -/
def out (qw qa : EReal → EReal) (x0 : (⟨3, ![1000000, 16, 3]⟩ : Shape).Idx → EReal)
    (x1 : (⟨2, ![48, 64]⟩ : Shape).Idx → EReal) (x2 : (⟨1, ![64]⟩ : Shape).Idx → EReal)
    (x3 : (⟨2, ![64, 32]⟩ : Shape).Idx → EReal) (x4 : (⟨1, ![32]⟩ : Shape).Idx → EReal)
    (x5 : (⟨2, ![32, 32]⟩ : Shape).Idx → EReal) (x6 : (⟨1, ![32]⟩ : Shape).Idx → EReal)
    (x7 : (⟨2, ![32, 5]⟩ : Shape).Idx → EReal) (x8 : (⟨1, ![5]⟩ : Shape).Idx → EReal)
    (r : Fin 1000000) (j : Fin 5) : EReal :=
  mlp qw qa (xrow x0 r) (fun (k : Fin 48) (n : Fin 64) => x1 (ix2 k n)) (fun n : Fin 64 => x2 (ix1 n))
    (fun (k : Fin 64) (n : Fin 32) => x3 (ix2 k n)) (fun n : Fin 32 => x4 (ix1 n))
    (fun (k : Fin 32) (n : Fin 32) => x5 (ix2 k n)) (fun n : Fin 32 => x6 (ix1 n))
    (fun (k : Fin 32) (n : Fin 5) => x7 (ix2 k n)) (fun n : Fin 5 => x8 (ix1 n)) j

/-- With every entry of the input and of the six quantized parameter arrays a real number, the straight-through
    stack is the plainly quantized one. -/
theorem out_ste_eq (x0 : (⟨3, ![1000000, 16, 3]⟩ : Shape).Idx → EReal)
    (x1 : (⟨2, ![48, 64]⟩ : Shape).Idx → EReal) (x2 : (⟨1, ![64]⟩ : Shape).Idx → EReal)
    (x3 : (⟨2, ![64, 32]⟩ : Shape).Idx → EReal) (x4 : (⟨1, ![32]⟩ : Shape).Idx → EReal)
    (x5 : (⟨2, ![32, 32]⟩ : Shape).Idx → EReal) (x6 : (⟨1, ![32]⟩ : Shape).Idx → EReal)
    (x7 : (⟨2, ![32, 5]⟩ : Shape).Idx → EReal) (x8 : (⟨1, ![5]⟩ : Shape).Idx → EReal)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (r : Fin 1000000) (j : Fin 5) :
    out sW sA x0 x1 x2 x3 x4 x5 x6 x7 x8 r j = out qW qA x0 x1 x2 x3 x4 x5 x6 x7 x8 r j :=
  mlp_ste_eq ⟨_, c128_eq⟩ c128_ne ⟨_, lo128_eq⟩ ⟨_, hi127_eq⟩ ⟨_, c256_eq⟩ c256_ne ⟨_, lo0_eq⟩ ⟨_, hi255_eq⟩ _ _ _ _ _ _ _ _ _ j
    (fun _ => h0 _) (fun _ _ => h1 _) (fun _ => h2 _) (fun _ _ => h3 _) (fun _ => h4 _) (fun _ _ => h5 _) (fun _ => h6 _)

end Cert.MlpSpec

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.KBody.lean ====
/-
  The kernel body's arithmetic at one entry.

  At a grid point the body holds a block of 10000 rows of the flattened input and the resident (already
  quantized) parameters. Each of the three hidden layers is a matrix product into a zero accumulator, plus the
  bias row broadcast over the rows, then the activation quantizer (scale by 256, round to nearest even, clamp to
  [0, 255], divide by 256); the last layer is a product plus bias. Read at row `p` and column `q`, each product
  is the sum over the contraction index of the row's entries times the column's, so the stored value at `(p, q)`
  is the nest of dense layers of the specification, over the block's row `p`.
-/
import proofs.«124545_j53884659695675_2_alg».proof.Proof.Gen.KernelIdeal.Skeleton
import proofs.«124545_j53884659695675_2_alg».proof.Proof.Spec
import proofs.«124545_j53884659695675_2_alg».proof.Proof.LibPlainDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.SteQuant Cert.MlpSpec

/-- A product of an `M×K` block with a `K×N` matrix into the zero accumulator plus a `[1, N]` bias row broadcast over
    the rows, at `(p, q)`: the dense layer's output `q` on row `p`. -/
theorem dense_apply {M K N : Nat} (prec : Option ContractPrecision)
    (a : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (p : Fin M) (q : Fin N) :
    addf (matmul (DotDims.plain M K N) prec a w (constant ⟨2, ![M, N]⟩ .f32 0x00000000#32)) (broadcastTo ⟨2, ![M, N]⟩ b hb) (ix2 p q)
      = dense (fun k : Fin K => a (ix2 p k)) (fun k => w (ix2 k q)) (b (ix2 (0 : Fin 1) q)) := by
  show FloatOps.matmul (DotDims.plain M K N) prec a w (constant ⟨2, ![M, N]⟩ .f32 0x00000000#32) (ix2 p q)
      + broadcastTo ⟨2, ![M, N]⟩ b hb (ix2 p q) = _
  rw [PlainDot.matmul_zero_apply, broadcastTo_1b_ab_apply]
  rfl

/-- The activation quantizer applied to a whole block, at an entry. -/
theorem qact_apply {s : Shape} (h : FVec Ideal s .f32) (i : s.Idx) :
    divf (minimumf (broadcast s (Scalar.ofBits (F := Ideal) .f32 0x437F0000#32))
      (maximumf (broadcast s (Scalar.ofBits (F := Ideal) .f32 0x00000000#32))
        (roundeven (mulf h (broadcast s (Scalar.ofBits (F := Ideal) .f32 0x43800000#32))))))
      (broadcast s (Scalar.ofBits (F := Ideal) .f32 0x43800000#32)) i = qA (h i) := rfl

/-- A hidden layer of the body at an entry: product, bias row, activation quantizer. -/
theorem qlayer_apply {M K N : Nat} (prec : Option ContractPrecision)
    (a : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (p : Fin M) (q : Fin N) :
    divf (minimumf (broadcast ⟨2, ![M, N]⟩ (Scalar.ofBits (F := Ideal) .f32 0x437F0000#32))
      (maximumf (broadcast ⟨2, ![M, N]⟩ (Scalar.ofBits (F := Ideal) .f32 0x00000000#32))
        (roundeven (mulf (addf (matmul (DotDims.plain M K N) prec a w (constant ⟨2, ![M, N]⟩ .f32 0x00000000#32)) (broadcastTo ⟨2, ![M, N]⟩ b hb))
          (broadcast ⟨2, ![M, N]⟩ (Scalar.ofBits (F := Ideal) .f32 0x43800000#32))))))
      (broadcast ⟨2, ![M, N]⟩ (Scalar.ofBits (F := Ideal) .f32 0x43800000#32)) (ix2 p q)
      = qA (dense (fun k : Fin K => a (ix2 p k)) (fun k => w (ix2 k q)) (b (ix2 (0 : Fin 1) q))) := by
  rw [qact_apply, dense_apply]

/-- The first two hidden layers (the body's first part), at row `p` and unit `n`. -/
theorem pay2_apply (v0 : Vec Ideal S10000x48 .f32) (v2 : Vec Ideal S48x64 .f32) (v5 : Vec Ideal S1x64 .f32)
    (v18 : Vec Ideal S64x32 .f32) (v21 : Vec Ideal S1x32 .f32) (p : Fin 10000) (n : Fin 32) :
    k0_pay2 (F := Ideal) v0 v2 v5 v18 v21 (ix2 p n)
      = qA (dense (fun k : Fin 64 => qA (dense (fun k' : Fin 48 => v0 (ix2 p k')) (fun k' => v2 (ix2 k' k)) (v5 (ix2 (0 : Fin 1) k))))
          (fun k => v18 (ix2 k n)) (v21 (ix2 (0 : Fin 1) n))) := by
  unfold k0_pay2
  simp only [shapeCast_self]
  refine (qlayer_apply (M := 10000) (K := 64) (N := 32) _ _ _ _ _ p n).trans ?_
  refine congrArg qA (congrArg (fun a => dense a _ _) (funext fun k => ?_))
  exact qlayer_apply (M := 10000) (K := 48) (N := 64) _ _ _ _ _ p k

/-- The third hidden layer and the output layer (the body's second part), at row `p` and output `q`. -/
theorem pay1_apply (v33 : FVec Ideal S10000x32 .f32) (v35 : FVec Ideal S32x32 .f32) (v37 : Vec Ideal S1x32 .f32)
    (v50 : Vec Ideal S32x5 .f32) (v52 : Vec Ideal S1x5 .f32) (p : Fin 10000) (q : Fin 5) :
    k0_pay1 (F := Ideal) v33 v35 (constant S10000x32 .f32 0x00000000#32) v37 v50 v52 (ix2 p q)
      = dense (fun k : Fin 32 => qA (dense (fun k' : Fin 32 => v33 (ix2 p k')) (fun k' => v35 (ix2 k' k)) (v37 (ix2 (0 : Fin 1) k))))
          (fun k => v50 (ix2 k q)) (v52 (ix2 (0 : Fin 1) q)) := by
  unfold k0_pay1
  simp only [shapeCast_self]
  refine (dense_apply (M := 10000) (K := 32) (N := 5) _ _ _ _ _ p q).trans ?_
  refine congrArg (fun a => dense a _ _) (funext fun k => ?_)
  exact qlayer_apply (M := 10000) (K := 32) (N := 32) _ _ _ _ _ p k

/-- The whole body at `(p, q)`: the specification's nest of layers over row `p` of the input block. -/
theorem body_apply (x0 : Vec Ideal S10000x48 .f32) (x1 : Vec Ideal S48x64 .f32) (x2 : Vec Ideal S1x64 .f32)
    (x3 : Vec Ideal S64x32 .f32) (x4 : Vec Ideal S1x32 .f32) (x5 : Vec Ideal S32x32 .f32) (x6 : Vec Ideal S1x32 .f32)
    (x7 : Vec Ideal S32x5 .f32) (x8 : Vec Ideal S1x5 .f32) (p : Fin 10000) (q : Fin 5) :
    k0_pay1 (F := Ideal) (k0_pay2 x0 x1 x2 x3 x4) (k0_pay3 x5) (constant S10000x32 .f32 0x00000000#32) x6 x7 x8 (ix2 p q)
      = mlp id qA (fun k : Fin 48 => x0 (ix2 p k)) (fun k n => x1 (ix2 k n)) (fun n => x2 (ix2 (0 : Fin 1) n))
          (fun k n => x3 (ix2 k n)) (fun n => x4 (ix2 (0 : Fin 1) n)) (fun k n => x5 (ix2 k n)) (fun n => x6 (ix2 (0 : Fin 1) n))
          (fun k n => x7 (ix2 k n)) (fun n => x8 (ix2 (0 : Fin 1) n)) q := by
  have e3 : k0_pay3 (F := Ideal) x5 = x5 := by unfold k0_pay3; exact shapeCast_self _ _
  rw [pay1_apply, e3]
  unfold mlp
  simp only [pay2_apply]
  rfl

end Cert.KernelIdeal.Body

end
-- ==== Proof.KFinal.lean ====
/-
  From the blocks to the whole output array.

  Grid point `t` (of 100) stages rows `10000·t … 10000·t + 9999` of the flattened input and writes back the same rows of
  the output; the eight parameter windows stage their whole arrays at every point. So what point `t` writes at block
  entry `(p, q)` is the body's value on row `10000·t + p` of the input, and since the hundred row blocks tile the
  `[1000000, 5]` output, the output array ends as one function of the arrays the region is entered with: at `(r, q)`
  the nest of dense layers over row `r`.
-/
import proofs.«124545_j53884659695675_2_alg».proof.Proof.Gen.KernelIdeal.Value
import proofs.«124545_j53884659695675_2_alg».proof.Proof.KBody

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Cert.SteQuant Cert.MlpSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and output row windows sit at block `t`, every parameter window at
    block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 100 := lt_of_lt_of_eq t.isLt N_0

/-- The array row that entry `p` of point `t`'s row block sits at. -/
def rowAt (t : Fin cfg0.N) (p : Fin 10000) : Fin 1000000 :=
  ⟨t.val * 10000 + p.val, by have := t_lt t; have := p.isLt; omega⟩

/-- Entry `(r, j)` of the output as a function of the arrays the region is entered with. -/
def entry (c : Dev nD) (r : Fin 1000000) (j : Fin 5) : EReal :=
  mlp id qA (fun k : Fin 48 => V m c main_v0 (ix2 r k)) (fun (k : Fin 48) (n : Fin 64) => V m c main_v6 (ix2 k n))
    (fun n : Fin 64 => V m c main_v13 (ix2 (0 : Fin 1) n)) (fun (k : Fin 64) (n : Fin 32) => V m c main_v19 (ix2 k n))
    (fun n : Fin 32 => V m c main_v26 (ix2 (0 : Fin 1) n)) (fun (k : Fin 32) (n : Fin 32) => V m c main_v32 (ix2 k n))
    (fun n : Fin 32 => V m c main_v39 (ix2 (0 : Fin 1) n)) (fun (k : Fin 32) (n : Fin 5) => V m c main_arg7 (ix2 k n))
    (fun n : Fin 5 => V m c main_v40 (ix2 (0 : Fin 1) n)) j

/-- The output array as one function of the arrays the region is entered with. -/
def arr (c : Dev nD) : S1000000x5.Idx → EReal := fun i => entry m c (i 0) (i 1)

/-! ## Each window's block read where the output's rectangle says -/

theorem blk0 (c : Dev nD) (t : Fin cfg0.N) (p : Fin 10000) (k : Fin 48) :
    iblk m c 0 t (ix2 p k) = V m c main_v0 (ix2 (rowAt t p) k) := by
  obtain ⟨e0, e1, -⟩ := idx_facts t
  show V m c main_v0 (((cfg0.win 0).blk t).view.emb (ix2 p k)) = V m c main_v0 (ix2 (rowAt t p) k)
  refine congrArg (V m c main_v0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 48 + 1 * k.val = k.val; rw [e1]; omega

theorem blk1 (c : Dev nD) (t : Fin cfg0.N) (a : Fin 48) (b : Fin 64) :
    iblk m c 1 t (ix2 a b) = V m c main_v6 (ix2 a b) := by
  have hf := idx_facts t
  have e0 : win0_1.index t (0 : Fin 2) = 0 := by simp only [hf]
  have e1 : win0_1.index t (1 : Fin 2) = 0 := by simp only [hf]
  show V m c main_v6 (((cfg0.win 1).blk t).view.emb (ix2 a b)) = V m c main_v6 (ix2 a b)
  refine congrArg (V m c main_v6) (funext fun d => Fin.ext ?_)
  match d with
  | ⟨0, _⟩ => show win0_1.index t (0 : Fin 2) * 48 + 1 * a.val = a.val; rw [e0]; omega
  | ⟨1, _⟩ => show win0_1.index t (1 : Fin 2) * 64 + 1 * b.val = b.val; rw [e1]; omega

theorem blk2 (c : Dev nD) (t : Fin cfg0.N) (a : Fin 1) (b : Fin 64) :
    iblk m c 2 t (ix2 a b) = V m c main_v13 (ix2 a b) := by
  have hf := idx_facts t
  have e0 : win0_2.index t (0 : Fin 2) = 0 := by simp only [hf]
  have e1 : win0_2.index t (1 : Fin 2) = 0 := by simp only [hf]
  show V m c main_v13 (((cfg0.win 2).blk t).view.emb (ix2 a b)) = V m c main_v13 (ix2 a b)
  refine congrArg (V m c main_v13) (funext fun d => Fin.ext ?_)
  match d with
  | ⟨0, _⟩ => show win0_2.index t (0 : Fin 2) * 1 + 1 * a.val = a.val; rw [e0]; omega
  | ⟨1, _⟩ => show win0_2.index t (1 : Fin 2) * 64 + 1 * b.val = b.val; rw [e1]; omega

theorem blk3 (c : Dev nD) (t : Fin cfg0.N) (a : Fin 64) (b : Fin 32) :
    iblk m c 3 t (ix2 a b) = V m c main_v19 (ix2 a b) := by
  have hf := idx_facts t
  have e0 : win0_3.index t (0 : Fin 2) = 0 := by simp only [hf]
  have e1 : win0_3.index t (1 : Fin 2) = 0 := by simp only [hf]
  show V m c main_v19 (((cfg0.win 3).blk t).view.emb (ix2 a b)) = V m c main_v19 (ix2 a b)
  refine congrArg (V m c main_v19) (funext fun d => Fin.ext ?_)
  match d with
  | ⟨0, _⟩ => show win0_3.index t (0 : Fin 2) * 64 + 1 * a.val = a.val; rw [e0]; omega
  | ⟨1, _⟩ => show win0_3.index t (1 : Fin 2) * 32 + 1 * b.val = b.val; rw [e1]; omega

theorem blk4 (c : Dev nD) (t : Fin cfg0.N) (a : Fin 1) (b : Fin 32) :
    iblk m c 4 t (ix2 a b) = V m c main_v26 (ix2 a b) := by
  have hf := idx_facts t
  have e0 : win0_4.index t (0 : Fin 2) = 0 := by simp only [hf]
  have e1 : win0_4.index t (1 : Fin 2) = 0 := by simp only [hf]
  show V m c main_v26 (((cfg0.win 4).blk t).view.emb (ix2 a b)) = V m c main_v26 (ix2 a b)
  refine congrArg (V m c main_v26) (funext fun d => Fin.ext ?_)
  match d with
  | ⟨0, _⟩ => show win0_4.index t (0 : Fin 2) * 1 + 1 * a.val = a.val; rw [e0]; omega
  | ⟨1, _⟩ => show win0_4.index t (1 : Fin 2) * 32 + 1 * b.val = b.val; rw [e1]; omega

theorem blk5 (c : Dev nD) (t : Fin cfg0.N) (a : Fin 32) (b : Fin 32) :
    iblk m c 5 t (ix2 a b) = V m c main_v32 (ix2 a b) := by
  have hf := idx_facts t
  have e0 : win0_5.index t (0 : Fin 2) = 0 := by simp only [hf]
  have e1 : win0_5.index t (1 : Fin 2) = 0 := by simp only [hf]
  show V m c main_v32 (((cfg0.win 5).blk t).view.emb (ix2 a b)) = V m c main_v32 (ix2 a b)
  refine congrArg (V m c main_v32) (funext fun d => Fin.ext ?_)
  match d with
  | ⟨0, _⟩ => show win0_5.index t (0 : Fin 2) * 32 + 1 * a.val = a.val; rw [e0]; omega
  | ⟨1, _⟩ => show win0_5.index t (1 : Fin 2) * 32 + 1 * b.val = b.val; rw [e1]; omega

theorem blk6 (c : Dev nD) (t : Fin cfg0.N) (a : Fin 1) (b : Fin 32) :
    iblk m c 6 t (ix2 a b) = V m c main_v39 (ix2 a b) := by
  have hf := idx_facts t
  have e0 : win0_6.index t (0 : Fin 2) = 0 := by simp only [hf]
  have e1 : win0_6.index t (1 : Fin 2) = 0 := by simp only [hf]
  show V m c main_v39 (((cfg0.win 6).blk t).view.emb (ix2 a b)) = V m c main_v39 (ix2 a b)
  refine congrArg (V m c main_v39) (funext fun d => Fin.ext ?_)
  match d with
  | ⟨0, _⟩ => show win0_6.index t (0 : Fin 2) * 1 + 1 * a.val = a.val; rw [e0]; omega
  | ⟨1, _⟩ => show win0_6.index t (1 : Fin 2) * 32 + 1 * b.val = b.val; rw [e1]; omega

theorem blk7 (c : Dev nD) (t : Fin cfg0.N) (a : Fin 32) (b : Fin 5) :
    iblk m c 7 t (ix2 a b) = V m c main_arg7 (ix2 a b) := by
  have hf := idx_facts t
  have e0 : win0_7.index t (0 : Fin 2) = 0 := by simp only [hf]
  have e1 : win0_7.index t (1 : Fin 2) = 0 := by simp only [hf]
  show V m c main_arg7 (((cfg0.win 7).blk t).view.emb (ix2 a b)) = V m c main_arg7 (ix2 a b)
  refine congrArg (V m c main_arg7) (funext fun d => Fin.ext ?_)
  match d with
  | ⟨0, _⟩ => show win0_7.index t (0 : Fin 2) * 32 + 1 * a.val = a.val; rw [e0]; omega
  | ⟨1, _⟩ => show win0_7.index t (1 : Fin 2) * 5 + 1 * b.val = b.val; rw [e1]; omega

theorem blk8 (c : Dev nD) (t : Fin cfg0.N) (a : Fin 1) (b : Fin 5) :
    iblk m c 8 t (ix2 a b) = V m c main_v40 (ix2 a b) := by
  have hf := idx_facts t
  have e0 : win0_8.index t (0 : Fin 2) = 0 := by simp only [hf]
  have e1 : win0_8.index t (1 : Fin 2) = 0 := by simp only [hf]
  show V m c main_v40 (((cfg0.win 8).blk t).view.emb (ix2 a b)) = V m c main_v40 (ix2 a b)
  refine congrArg (V m c main_v40) (funext fun d => Fin.ext ?_)
  match d with
  | ⟨0, _⟩ => show win0_8.index t (0 : Fin 2) * 1 + 1 * a.val = a.val; rw [e0]; omega
  | ⟨1, _⟩ => show win0_8.index t (1 : Fin 2) * 5 + 1 * b.val = b.val; rw [e1]; omega

/-! ## What a point writes back, and the cover -/

/-- What point `t` writes back is block `t` of `arr`. -/
theorem flushed_eq (c : Dev nD) (t : Fin cfg0.N) :
    (dats m 0 c).flushed 9 t = ((cfg0.win 9).blk t).view.read (Elt Ideal) (arr m c) := by
  rw [Value.flushed9]
  unfold out0_9
  rw [View.canon_unit_zero hz]
  simp only [View.ld_unit_zero (S := S10000x48) hz, View.ld_unit_zero (S := S48x64) hz, View.ld_unit_zero (S := S1x64) hz,
    View.ld_unit_zero (S := S64x32) hz, View.ld_unit_zero (S := S1x32) hz, View.ld_unit_zero (S := S32x32) hz,
    View.ld_unit_zero (S := S32x5) hz, View.ld_unit_zero (S := S1x5) hz]
  funext y
  obtain ⟨p, q, rfl⟩ : ∃ (p : Fin 10000) (q : Fin 5), y = ix2 p q := ⟨y 0, y 1, eq_ix2 y⟩
  have hemb : ((cfg0.win 9).blk t).view.emb (ix2 p q) = ix2 (rowAt t p) q := by
    obtain ⟨-, -, -, -, -, -, -, -, -, -, -, -, -, -, -, -, -, -, e0, e1⟩ := idx_facts t
    refine funext fun d => Fin.ext ?_
    match d with
    | ⟨0, _⟩ => show win0_9.index t (0 : Fin 2) * 10000 + 1 * p.val = t.val * 10000 + p.val; rw [e0]; omega
    | ⟨1, _⟩ => show win0_9.index t (1 : Fin 2) * 5 + 1 * q.val = q.val; rw [e1]; omega
  show k0_pay1 (F := Ideal) (k0_pay2 (iblk m c 0 t) (iblk m c 1 t) (iblk m c 2 t) (iblk m c 3 t) (iblk m c 4 t)) (k0_pay3 (iblk m c 5 t))
      (constant S10000x32 .f32 0x00000000#32) (iblk m c 6 t) (iblk m c 7 t) (iblk m c 8 t) (ix2 p q)
    = arr m c (((cfg0.win 9).blk t).view.emb (ix2 p q))
  rw [hemb]
  refine (Body.body_apply (iblk m c 0 t) (iblk m c 1 t) (iblk m c 2 t) (iblk m c 3 t) (iblk m c 4 t) (iblk m c 5 t)
    (iblk m c 6 t) (iblk m c 7 t) (iblk m c 8 t) p q).trans ?_
  show _ = entry m c (rowAt t p) q
  unfold entry
  simp only [blk0, blk1, blk2, blk3, blk4, blk5, blk6, blk7, blk8]

/-- An index of the output array is in point `t`'s block iff each coordinate is in the block's range on its axis. -/
theorem mem_blk9 (t : Fin cfg0.N) (i : S1000000x5.Idx) :
    i ∈ ((cfg0.win 9).blk t).view.set ↔ ∀ a : Fin 2, win0_9.index t a * S10000x5.size a ≤ (i a).val ∧ (i a).val < win0_9.index t a * S10000x5.size a + S10000x5.size a := by
  show i ∈ ((View.whole main_v41).slice (win0_9.rect t)).set ↔ _
  rw [View.set_slice_whole, Rect.mem_set_unit]
  exact Iff.rfl

/-- The hundred row blocks cover the output array: row `r` is in the block of point `r / 10000`. -/
theorem cover (i : S1000000x5.Idx) : ∃ t : Fin cfg0.N, (cfg0.win 9).flush t = true ∧ i ∈ ((cfg0.win 9).blk t).view.set := by
  have hi0 : (i 0).val < 1000000 := (i 0).isLt
  have hi1 : (i 1).val < 5 := (i 1).isLt
  have hN : cfg0.N = 100 := N_0
  let t : Fin cfg0.N := ⟨(i 0).val / 10000, by rw [hN]; omega⟩
  obtain ⟨-, -, -, -, -, -, -, -, -, -, -, -, -, -, -, -, -, -, e0, e1⟩ := idx_facts t
  have ht : t.val = (i 0).val / 10000 := rfl
  refine ⟨t, flush0_9 t, ?_⟩
  rw [mem_blk9]
  intro a
  match a with
  | ⟨0, _⟩ => show win0_9.index t (0 : Fin 2) * 10000 ≤ (i 0).val ∧ (i 0).val < win0_9.index t (0 : Fin 2) * 10000 + 10000; rw [e0, ht]; omega
  | ⟨1, _⟩ => show win0_9.index t (1 : Fin 2) * 5 ≤ (i 1).val ∧ (i 1).val < win0_9.index t (1 : Fin 2) * 5 + 5; rw [e1]; omega

/-- The output array after the run is `arr`. -/
theorem final (c : Dev nD) : (dats m 0 c).arrAt 9 cfg0.N = arr m c :=
  (dats m 0 c).arrAt_eq_of_cover 9 (arr m c) (fun t _ => flushed_eq m c t) cover

end Cert.KernelIdeal.Final

end
-- ==== Proof.KQuantArr.lean ====
/-
  The weight quantizer applied to a whole array on the host, read at an entry.

  On the host the quantizer is spelt over whole arrays: multiply by the scalar 128 broadcast to the array's shape, round
  to nearest even, clamp between the broadcast scalars -128 and 127 (maximum, then minimum), divide by the broadcast 128.
  A scalar broadcast reads as the scalar at every index and the rest is pointwise, so at entry `i` the result is the
  quantizer of the argument's entry `i`.
-/
import proofs.«124545_j53884659695675_2_alg».proof.Proof.Spec
import Idealize.ShloMosaic.Lib.Pipeline.Value

noncomputable section

namespace Cert.QuantArr

open Idealize.ShloMosaic Idealize.ShloMosaic.ValueIdx Cert.SteQuant Cert.MlpSpec

/-- A rank-0 array broadcast to any shape reads as its one entry. -/
theorem bcast0_apply {α : Type} {s : Shape} (h : (⟨0, ![]⟩ : Shape).BroadcastsInDim s (![] : Fin 0 → Fin s.rank))
    (y : (⟨0, ![]⟩ : Shape).Idx → α) (i : s.Idx) : broadcastInDim s ![] h y i = y ix0 :=
  broadcastInDim_apply _ h y i ix0 (fun a => a.elim0)

/-- The host's weight quantizer over an array of any shape, at an entry. -/
theorem quantW_apply {s : Shape} (h : (⟨0, ![]⟩ : Shape).BroadcastsInDim s (![] : Fin 0 → Fin s.rank))
    (x : FVec Ideal s .f32) (i : s.Idx) :
    Host.divf (minimumf (broadcastInDim s ![] h (constant (F := Ideal) ⟨0, ![]⟩ .f32 0x42FE0000#32))
        (maximumf (broadcastInDim s ![] h (constant (F := Ideal) ⟨0, ![]⟩ .f32 0xC3000000#32))
          (Host.roundeven (mulf x (broadcastInDim s ![] h (constant (F := Ideal) ⟨0, ![]⟩ .f32 0x43000000#32))))))
      (broadcastInDim s ![] h (constant (F := Ideal) ⟨0, ![]⟩ .f32 0x43000000#32)) i = qW (x i) := by
  show Ideal.div (min (broadcastInDim s ![] h (constant (F := Ideal) ⟨0, ![]⟩ .f32 0x42FE0000#32) i)
      (max (broadcastInDim s ![] h (constant (F := Ideal) ⟨0, ![]⟩ .f32 0xC3000000#32) i)
        (Ideal.liftRound Ideal.roundHalfEven (x i * broadcastInDim s ![] h (constant (F := Ideal) ⟨0, ![]⟩ .f32 0x43000000#32) i))))
    (broadcastInDim s ![] h (constant (F := Ideal) ⟨0, ![]⟩ .f32 0x43000000#32) i) = _
  simp only [bcast0_apply]
  rfl

end Cert.QuantArr

end
-- ==== Proof.KHostA.lean ====
/-
  The arrays the kernel region is entered with, first group: the flattened input and the first layer's parameters.

  Before the region the host reshapes `x[B,16,3]` row-major to `[B,48]`, and quantizes each weight matrix and each bias
  (the bias then laid out as one row). Read at an entry, the flattened input at `(r, k)` is `x` at `(r, k / 3, k % 3)`,
  and each quantized parameter is the weight quantizer of the argument's entry.
-/
import proofs.«124545_j53884659695675_2_alg».proof.Proof.Gen.KernelIdeal.Frame
import proofs.«124545_j53884659695675_2_alg».proof.Proof.KQuantArr
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.SteQuant Cert.MlpSpec

variable (m : (ℓ : Loc nD τ sig) → Buf (Elt Ideal) ℓ)

set_option maxHeartbeats 2000000 in
/-- The flattened input: entry `(r, k)` is `x` at `(r, k / 3, k % 3)`. -/
theorem V_v0 (c : Dev nD) (r : Fin 1000000) (k : Fin 48) :
    (V m c main_v0 : S1000000x48.Idx → EReal) (ix2 r k) = xrow (m ((c : Thread nD τ).loc main_arg0)) r k := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  unfold xrow
  refine shapeCast_apply _ _ _ _ ?_
  show (Shape.rowMajor S1000000x16x3 (ix3 r ⟨k.val / 3, _⟩ ⟨k.val % 3, _⟩)).val = (Shape.rowMajor S1000000x48 (ix2 r k)).val
  rw [Shape.rowMajor_val_three, Shape.rowMajor_val_two]
  show (r.val * 16 + k.val / 3) * 3 + k.val % 3 = r.val * 48 + k.val
  omega

set_option maxHeartbeats 2000000 in
/-- The first layer's weights: the host quantizes `arg1` entry by entry. -/
theorem V_v6 (c : Dev nD) (i : S48x64.Idx) :
    (V m c main_v6 : S48x64.Idx → EReal) i = qW (m ((c : Thread nD τ).loc main_arg1) i) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  exact QuantArr.quantW_apply _ _ i

set_option maxHeartbeats 2000000 in
/-- The first layer's bias: the host quantizes `arg2` entry by entry and lays it out as one row `[1, 64]`. -/
theorem V_v13 (c : Dev nD) (u : Fin 1) (n : Fin 64) :
    (V m c main_v13 : S1x64.Idx → EReal) (ix2 u n) = qW (m ((c : Thread nD τ).loc main_arg2) (ix1 n)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  refine (shapeCast_a_1a_apply _ _ u n).trans ?_
  exact QuantArr.quantW_apply _ _ (ix1 n)

end Cert.KernelIdeal.Host

end
-- ==== Proof.KHostB.lean ====
/-
  The arrays the kernel region is entered with, second group: the second layer's parameters and the third layer's weights,
  each the weight quantizer of the argument's entry (a bias laid out as one row).
-/
import proofs.«124545_j53884659695675_2_alg».proof.Proof.Gen.KernelIdeal.Frame
import proofs.«124545_j53884659695675_2_alg».proof.Proof.KQuantArr
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.SteQuant Cert.MlpSpec

variable (m : (ℓ : Loc nD τ sig) → Buf (Elt Ideal) ℓ)

set_option maxHeartbeats 2000000 in
/-- The second layer's weights: the host quantizes `arg3` entry by entry. -/
theorem V_v19 (c : Dev nD) (i : S64x32.Idx) :
    (V m c main_v19 : S64x32.Idx → EReal) i = qW (m ((c : Thread nD τ).loc main_arg3) i) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  exact QuantArr.quantW_apply _ _ i

set_option maxHeartbeats 2000000 in
/-- The second layer's bias: the host quantizes `arg4` entry by entry and lays it out as one row `[1, 32]`. -/
theorem V_v26 (c : Dev nD) (u : Fin 1) (n : Fin 32) :
    (V m c main_v26 : S1x32.Idx → EReal) (ix2 u n) = qW (m ((c : Thread nD τ).loc main_arg4) (ix1 n)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  refine (shapeCast_a_1a_apply _ _ u n).trans ?_
  exact QuantArr.quantW_apply _ _ (ix1 n)

set_option maxHeartbeats 2000000 in
/-- The third layer's weights: the host quantizes `arg5` entry by entry. -/
theorem V_v32 (c : Dev nD) (i : S32x32.Idx) :
    (V m c main_v32 : S32x32.Idx → EReal) i = qW (m ((c : Thread nD τ).loc main_arg5) i) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  exact QuantArr.quantW_apply _ _ i

end Cert.KernelIdeal.Host

end
-- ==== Proof.KHostC.lean ====
/-
  The arrays the kernel region is entered with, third group: the third layer's bias (quantized, laid out as one row) and
  the output layer's bias (not quantized, laid out as one row).
-/
import proofs.«124545_j53884659695675_2_alg».proof.Proof.Gen.KernelIdeal.Frame
import proofs.«124545_j53884659695675_2_alg».proof.Proof.KQuantArr
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.SteQuant Cert.MlpSpec

variable (m : (ℓ : Loc nD τ sig) → Buf (Elt Ideal) ℓ)

set_option maxHeartbeats 2000000 in
/-- The third layer's bias: the host quantizes `arg6` entry by entry and lays it out as one row `[1, 32]`. -/
theorem V_v39 (c : Dev nD) (u : Fin 1) (n : Fin 32) :
    (V m c main_v39 : S1x32.Idx → EReal) (ix2 u n) = qW (m ((c : Thread nD τ).loc main_arg6) (ix1 n)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  refine (shapeCast_a_1a_apply _ _ u n).trans ?_
  exact QuantArr.quantW_apply _ _ (ix1 n)

set_option maxHeartbeats 2000000 in
/-- The output layer's bias laid out as one row `[1, 5]`. -/
theorem V_v40 (c : Dev nD) (u : Fin 1) (n : Fin 5) :
    (V m c main_v40 : S1x5.Idx → EReal) (ix2 u n) = m ((c : Thread nD τ).loc main_arg8) (ix1 n) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  exact shapeCast_a_1a_apply _ _ u n

end Cert.KernelIdeal.Host

end
-- ==== Proof.KValue.lean ====
/-
  The kernel's result array as a function of the argument arrays.

  The output array is the nest of dense layers over the arrays the region is entered with; those are the flattened
  input and the host-quantized parameters. Substituting, entry `(r, j)` of the kernel's result is the specification
  with the plain quantizers, of the nine argument arrays.
-/
import proofs.«124545_j53884659695675_2_alg».proof.Proof.KFinal
import proofs.«124545_j53884659695675_2_alg».proof.Proof.KHostA
import proofs.«124545_j53884659695675_2_alg».proof.Proof.KHostB
import proofs.«124545_j53884659695675_2_alg».proof.Proof.KHostC

noncomputable section

namespace Cert.KernelIdeal.KValue

open Cert.KernelIdeal Cert.KernelIdeal.Gen Idealize.ShloMosaic Idealize.ShloMosaic.TcCoe Idealize.SL.Sem
open Idealize.ShloMosaic.ValueIdx Cert.SteQuant Cert.MlpSpec

variable (m : (ℓ : Loc nD τ sig) → Buf (Elt Ideal) ℓ) (ρ : Dev nD → PrngReg)

/-- A stack whose parameters arrive already quantized is the stack that quantizes them itself. -/
theorem mlp_prequantized {K0 K1 K2 K3 N : Type} [Fintype K0] [Fintype K1] [Fintype K2] [Fintype K3] (qw qa : EReal → EReal)
    {x x' : K0 → EReal} {w1 w1' : K0 → K1 → EReal} {b1 b1' : K1 → EReal} {w2 w2' : K1 → K2 → EReal} {b2 b2' : K2 → EReal}
    {w3 w3' : K2 → K3 → EReal} {b3 b3' : K3 → EReal} {wo wo' : K3 → N → EReal} {bo bo' : N → EReal} (j : N)
    (hx : ∀ k, x k = x' k) (h1 : ∀ k n, w1 k n = qw (w1' k n)) (g1 : ∀ n, b1 n = qw (b1' n))
    (h2 : ∀ k n, w2 k n = qw (w2' k n)) (g2 : ∀ n, b2 n = qw (b2' n))
    (h3 : ∀ k n, w3 k n = qw (w3' k n)) (g3 : ∀ n, b3 n = qw (b3' n))
    (ho : ∀ k n, wo k n = wo' k n) (go : ∀ n, bo n = bo' n) :
    mlp id qa x w1 b1 w2 b2 w3 b3 wo bo j = mlp qw qa x' w1' b1' w2' b2' w3' b3' wo' bo' j := by
  obtain rfl : x = x' := funext hx
  obtain rfl : w1 = fun k n => qw (w1' k n) := funext fun k => funext fun n => h1 k n
  obtain rfl : b1 = fun n => qw (b1' n) := funext g1
  obtain rfl : w2 = fun k n => qw (w2' k n) := funext fun k => funext fun n => h2 k n
  obtain rfl : b2 = fun n => qw (b2' n) := funext g2
  obtain rfl : w3 = fun k n => qw (w3' k n) := funext fun k => funext fun n => h3 k n
  obtain rfl : b3 = fun n => qw (b3' n) := funext g3
  obtain rfl : wo = wo' := funext fun k => funext fun n => ho k n
  obtain rfl : bo = bo' := funext go
  rfl

/-- Entry `(r, j)` of the output in terms of the argument arrays. -/
theorem entry_eq (c : Dev nD) (r : Fin 1000000) (j : Fin 5) :
    Final.entry m c r j = out qW qA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r j := by
  unfold Final.entry out
  exact mlp_prequantized qW qA j (fun k => Host.V_v0 m c r k) (fun k n => Host.V_v6 m c (ix2 k n)) (fun n => Host.V_v13 m c 0 n)
    (fun k n => Host.V_v19 m c (ix2 k n)) (fun n => Host.V_v26 m c 0 n) (fun k n => Host.V_v32 m c (ix2 k n))
    (fun n => Host.V_v39 m c 0 n) (fun k n => congrFun (V_main_arg7 m c) (ix2 k n)) (fun n => Host.V_v40 m c 0 n)

/-- The kernel's run: the result array ends at the specification with the plain quantizers, the arguments unchanged. -/
theorem run : θ_run defs (onTc (τ := τ) (main (F := Ideal))) ⟨m, fun _ => 0, ρ⟩ fun r => ∀ c : Dev nD,
      r.2.mem ((c : Thread nD τ).loc main_v41) = (fun i => out qW qA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((Final.final m c).trans (funext fun i => entry_eq m c (i 0) (i 1))), (h c).2⟩)
    (Value.run_blocks m ρ)

end Cert.KernelIdeal.KValue

end
-- ==== Proof.RefValue.lean ====
/-
  The reference program's result, read at an index, is the specification with straight-through quantizers.

  The program is three quantized dense layers and a plain one. Each quantizer is the chain
  multiply by the scale, round to nearest even, clamp, divide by the scale, subtract the argument, add the argument:
  read at an index that is `ste` of the argument at that index. Each matrix product read at `(r, n)` is the sum over
  the contracted axis, and the bias is broadcast along the rows, so a layer's pre-activation at `(r, n)` is `dense`
  of the previous activations of row `r`, column `n` of the weights and entry `n` of the bias. The flattening
  `[B,16,3] → [B,48]` is row-major: feature `k` of row `r` is the entry `(r, k / 3, k % 3)`.
-/
import proofs.«124545_j53884659695675_2_alg».proof.Proof.Gen.ReferenceIdeal.Read
import proofs.«124545_j53884659695675_2_alg».proof.Proof.Spec

noncomputable section

namespace Cert.ReferenceIdeal.RefValue

open Cert.ReferenceIdeal Cert.ReferenceIdeal.Read Idealize.ShloMosaic Idealize.ShloMosaic.ValueIdx Cert.SteQuant Cert.MlpSpec
open scoped BigOperators

/-! ## The weight and bias quantizers: each result entry is `sW` of the argument's entry -/

theorem q8 (x1 : (⟨S48x64, .f32⟩ : BufTy).Contents (Elt Ideal)) (i : S48x64.Idx) :
    val_main_v8 (F := Ideal) x1 i = sW (x1 i) := by
  simp only [val_main_v8_apply, val_main_v7_apply, val_main_v6_apply, val_main_v4_apply, val_main_call1_v4_apply, val_main_call1_v3_apply, val_main_call1_v2_apply, val_main_call1_v1_apply, val_main_call1_v0_apply, val_main_v3_apply, val_main_v2_apply, val_main_v1_apply, val_main_v5_apply, val_main_cst_apply, val_main_cst_0_apply, val_main_cst_1_apply, val_main_cst_2_apply,
    Ideal.addf_def, Ideal.subf_def, Ideal.mulf_def, Ideal.hostDivf_def, Ideal.maximumf_def, Ideal.minimumf_def, Ideal.hostUnary_roundeven_def, Ideal.ofBits_def]
  rfl

theorem q17 (x2 : (⟨S64, .f32⟩ : BufTy).Contents (Elt Ideal)) (i : S64.Idx) :
    val_main_v17 (F := Ideal) x2 i = sW (x2 i) := by
  simp only [val_main_v17_apply, val_main_v16_apply, val_main_v15_apply, val_main_v13_apply, val_main_call3_v4_apply, val_main_call3_v3_apply, val_main_call3_v2_apply, val_main_call3_v1_apply, val_main_call3_v0_apply, val_main_v12_apply, val_main_v11_apply, val_main_v10_apply, val_main_v14_apply, val_main_cst_3_apply, val_main_cst_4_apply, val_main_cst_5_apply, val_main_cst_6_apply,
    Ideal.addf_def, Ideal.subf_def, Ideal.mulf_def, Ideal.hostDivf_def, Ideal.maximumf_def, Ideal.minimumf_def, Ideal.hostUnary_roundeven_def, Ideal.ofBits_def]
  rfl

theorem q36 (x3 : (⟨S64x32, .f32⟩ : BufTy).Contents (Elt Ideal)) (i : S64x32.Idx) :
    val_main_v36 (F := Ideal) x3 i = sW (x3 i) := by
  simp only [val_main_v36_apply, val_main_v35_apply, val_main_v34_apply, val_main_v32_apply, val_main_call7_v4_apply, val_main_call7_v3_apply, val_main_call7_v2_apply, val_main_call7_v1_apply, val_main_call7_v0_apply, val_main_v31_apply, val_main_v30_apply, val_main_v29_apply, val_main_v33_apply, val_main_cst_11_apply, val_main_cst_12_apply, val_main_cst_13_apply, val_main_cst_14_apply,
    Ideal.addf_def, Ideal.subf_def, Ideal.mulf_def, Ideal.hostDivf_def, Ideal.maximumf_def, Ideal.minimumf_def, Ideal.hostUnary_roundeven_def, Ideal.ofBits_def]
  rfl

theorem q45 (x4 : (⟨S32, .f32⟩ : BufTy).Contents (Elt Ideal)) (i : S32.Idx) :
    val_main_v45 (F := Ideal) x4 i = sW (x4 i) := by
  simp only [val_main_v45_apply, val_main_v44_apply, val_main_v43_apply, val_main_v41_apply, val_main_call9_v4_apply, val_main_call9_v3_apply, val_main_call9_v2_apply, val_main_call9_v1_apply, val_main_call9_v0_apply, val_main_v40_apply, val_main_v39_apply, val_main_v38_apply, val_main_v42_apply, val_main_cst_15_apply, val_main_cst_16_apply, val_main_cst_17_apply, val_main_cst_18_apply,
    Ideal.addf_def, Ideal.subf_def, Ideal.mulf_def, Ideal.hostDivf_def, Ideal.maximumf_def, Ideal.minimumf_def, Ideal.hostUnary_roundeven_def, Ideal.ofBits_def]
  rfl

theorem q64 (x5 : (⟨S32x32, .f32⟩ : BufTy).Contents (Elt Ideal)) (i : S32x32.Idx) :
    val_main_v64 (F := Ideal) x5 i = sW (x5 i) := by
  simp only [val_main_v64_apply, val_main_v63_apply, val_main_v62_apply, val_main_v60_apply, val_main_call13_v4_apply, val_main_call13_v3_apply, val_main_call13_v2_apply, val_main_call13_v1_apply, val_main_call13_v0_apply, val_main_v59_apply, val_main_v58_apply, val_main_v57_apply, val_main_v61_apply, val_main_cst_23_apply, val_main_cst_24_apply, val_main_cst_25_apply, val_main_cst_26_apply,
    Ideal.addf_def, Ideal.subf_def, Ideal.mulf_def, Ideal.hostDivf_def, Ideal.maximumf_def, Ideal.minimumf_def, Ideal.hostUnary_roundeven_def, Ideal.ofBits_def]
  rfl

theorem q73 (x6 : (⟨S32, .f32⟩ : BufTy).Contents (Elt Ideal)) (i : S32.Idx) :
    val_main_v73 (F := Ideal) x6 i = sW (x6 i) := by
  simp only [val_main_v73_apply, val_main_v72_apply, val_main_v71_apply, val_main_v69_apply, val_main_call15_v4_apply, val_main_call15_v3_apply, val_main_call15_v2_apply, val_main_call15_v1_apply, val_main_call15_v0_apply, val_main_v68_apply, val_main_v67_apply, val_main_v66_apply, val_main_v70_apply, val_main_cst_27_apply, val_main_cst_28_apply, val_main_cst_29_apply, val_main_cst_30_apply,
    Ideal.addf_def, Ideal.subf_def, Ideal.mulf_def, Ideal.hostDivf_def, Ideal.maximumf_def, Ideal.minimumf_def, Ideal.hostUnary_roundeven_def, Ideal.ofBits_def]
  rfl

/-! ## The activation quantizers: each result entry is `sA` of the pre-activation's entry -/

theorem a28 (x0 : (⟨S1000000x16x3, .f32⟩ : BufTy).Contents (Elt Ideal)) (x1 : (⟨S48x64, .f32⟩ : BufTy).Contents (Elt Ideal)) (x2 : (⟨S64, .f32⟩ : BufTy).Contents (Elt Ideal)) (i : S1000000x64.Idx) :
    val_main_v28 (F := Ideal) x0 x1 x2 i = sA (val_main_v20 (F := Ideal) x0 x1 x2 i) := by
  simp only [val_main_v28_apply, val_main_v27_apply, val_main_v26_apply, val_main_v24_apply, val_main_call5_v4_apply, val_main_call5_v3_apply, val_main_call5_v2_apply, val_main_call5_v1_apply, val_main_call5_v0_apply, val_main_v23_apply, val_main_v22_apply, val_main_v21_apply, val_main_v25_apply, val_main_cst_7_apply, val_main_cst_8_apply, val_main_cst_9_apply, val_main_cst_10_apply,
    Ideal.addf_def, Ideal.subf_def, Ideal.mulf_def, Ideal.hostDivf_def, Ideal.maximumf_def, Ideal.minimumf_def, Ideal.hostUnary_roundeven_def, Ideal.ofBits_def]
  rfl

theorem a56 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (i : S1000000x32.Idx) :
    val_main_v56 (F := Ideal) x0 x1 x2 x3 x4 i = sA (val_main_v48 (F := Ideal) x0 x1 x2 x3 x4 i) := by
  simp only [val_main_v56_apply, val_main_v55_apply, val_main_v54_apply, val_main_v52_apply, val_main_call11_v4_apply, val_main_call11_v3_apply, val_main_call11_v2_apply, val_main_call11_v1_apply, val_main_call11_v0_apply, val_main_v51_apply, val_main_v50_apply, val_main_v49_apply, val_main_v53_apply, val_main_cst_19_apply, val_main_cst_20_apply, val_main_cst_21_apply, val_main_cst_22_apply,
    Ideal.addf_def, Ideal.subf_def, Ideal.mulf_def, Ideal.hostDivf_def, Ideal.maximumf_def, Ideal.minimumf_def, Ideal.hostUnary_roundeven_def, Ideal.ofBits_def]
  rfl

theorem a84 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (i : S1000000x32.Idx) :
    val_main_v84 (F := Ideal) x0 x1 x2 x3 x4 x5 x6 i = sA (val_main_v76 (F := Ideal) x0 x1 x2 x3 x4 x5 x6 i) := by
  simp only [val_main_v84_apply, val_main_v83_apply, val_main_v82_apply, val_main_v80_apply, val_main_call17_v4_apply, val_main_call17_v3_apply, val_main_call17_v2_apply, val_main_call17_v1_apply, val_main_call17_v0_apply, val_main_v79_apply, val_main_v78_apply, val_main_v77_apply, val_main_v81_apply, val_main_cst_31_apply, val_main_cst_32_apply, val_main_cst_33_apply, val_main_cst_34_apply,
    Ideal.addf_def, Ideal.subf_def, Ideal.mulf_def, Ideal.hostDivf_def, Ideal.maximumf_def, Ideal.minimumf_def, Ideal.hostUnary_roundeven_def, Ideal.ofBits_def]
  rfl

/-! ## Indices: the operand indices of the matrix products and of the bias broadcasts, by coordinates -/

/-- Feature `k` of row `r` of the flattened input is the entry `(r, k / 3, k % 3)`: `(48 r + k) / 48 = r`,
    `(48 r + k) / 3 % 16 = k / 3` and `(48 r + k) % 3 = k % 3` for `k < 48`. -/
theorem x_flat (x0 : (⟨S1000000x16x3, .f32⟩ : BufTy).Contents (Elt Ideal)) (r : Fin 1000000) (k : Fin 48) :
    x0 (idx_main_v0 (ix2 r k)) = xrow x0 r k := by
  unfold xrow
  have hk := k.isLt
  refine congrArg x0 (funext fun a => Fin.ext ?_)
  match a with
  | ⟨0, _⟩ => show (r.val * 48 + k.val) / 48 = r.val; omega
  | ⟨1, _⟩ => show (r.val * 48 + k.val) / 3 % 16 = k.val / 3; omega
  | ⟨2, _⟩ => show (r.val * 48 + k.val) % 3 = k.val % 3; omega

theorem lidx9 (r : Fin 1000000) (n : Fin 64) (k : Fin 48) : lidx_main_v9 (ix2 r n) k = ix2 r k :=
  funext fun a => Fin.ext (by match a with | ⟨0, _⟩ => rfl | ⟨1, _⟩ => rfl)
theorem ridx9 (r : Fin 1000000) (n : Fin 64) (k : Fin 48) : ridx_main_v9 (ix2 r n) k = ix2 k n :=
  funext fun a => Fin.ext (by match a with | ⟨0, _⟩ => rfl | ⟨1, _⟩ => rfl)
theorem bidx19 (r : Fin 1000000) (n : Fin 64) : idx_main_v18 (idx_main_v19 (ix2 r n)) = ix1 n :=
  funext fun a => Fin.ext (by match a with | ⟨0, _⟩ => rfl)

theorem lidx37 (r : Fin 1000000) (n : Fin 32) (k : Fin 64) : lidx_main_v37 (ix2 r n) k = ix2 r k :=
  funext fun a => Fin.ext (by match a with | ⟨0, _⟩ => rfl | ⟨1, _⟩ => rfl)
theorem ridx37 (r : Fin 1000000) (n : Fin 32) (k : Fin 64) : ridx_main_v37 (ix2 r n) k = ix2 k n :=
  funext fun a => Fin.ext (by match a with | ⟨0, _⟩ => rfl | ⟨1, _⟩ => rfl)
theorem bidx47 (r : Fin 1000000) (n : Fin 32) : idx_main_v46 (idx_main_v47 (ix2 r n)) = ix1 n :=
  funext fun a => Fin.ext (by match a with | ⟨0, _⟩ => rfl)

theorem lidx65 (r : Fin 1000000) (n : Fin 32) (k : Fin 32) : lidx_main_v65 (ix2 r n) k = ix2 r k :=
  funext fun a => Fin.ext (by match a with | ⟨0, _⟩ => rfl | ⟨1, _⟩ => rfl)
theorem ridx65 (r : Fin 1000000) (n : Fin 32) (k : Fin 32) : ridx_main_v65 (ix2 r n) k = ix2 k n :=
  funext fun a => Fin.ext (by match a with | ⟨0, _⟩ => rfl | ⟨1, _⟩ => rfl)
theorem bidx75 (r : Fin 1000000) (n : Fin 32) : idx_main_v74 (idx_main_v75 (ix2 r n)) = ix1 n :=
  funext fun a => Fin.ext (by match a with | ⟨0, _⟩ => rfl)

theorem lidx85 (r : Fin 1000000) (n : Fin 5) (k : Fin 32) : lidx_main_v85 (ix2 r n) k = ix2 r k :=
  funext fun a => Fin.ext (by match a with | ⟨0, _⟩ => rfl | ⟨1, _⟩ => rfl)
theorem ridx85 (r : Fin 1000000) (n : Fin 5) (k : Fin 32) : ridx_main_v85 (ix2 r n) k = ix2 k n :=
  funext fun a => Fin.ext (by match a with | ⟨0, _⟩ => rfl | ⟨1, _⟩ => rfl)
theorem bidx87 (r : Fin 1000000) (n : Fin 5) : idx_main_v86 (idx_main_v87 (ix2 r n)) = ix1 n :=
  funext fun a => Fin.ext (by match a with | ⟨0, _⟩ => rfl)

/-! ## The dense layers: a pre-activation at `(r, n)` is `dense` of row `r` of the previous activations -/

theorem pre1 (x0 : (⟨S1000000x16x3, .f32⟩ : BufTy).Contents (Elt Ideal)) (x1 : (⟨S48x64, .f32⟩ : BufTy).Contents (Elt Ideal)) (x2 : (⟨S64, .f32⟩ : BufTy).Contents (Elt Ideal)) (r : Fin 1000000) (n : Fin 64) :
    val_main_v20 (F := Ideal) x0 x1 x2 (ix2 r n)
      = dense (xrow x0 r) (fun k : Fin 48 => sW (x1 (ix2 k n))) (sW (x2 (ix1 n))) := by
  rw [val_main_v20_apply, Ideal.addf_def, val_main_v9_apply, val_main_v19_apply, val_main_v18_apply, bidx19, q17]
  unfold dense
  refine congrArg₂ (· + ·) (Finset.sum_congr rfl fun k _ => ?_) rfl
  rw [val_main_v0_apply, lidx9, ridx9, x_flat x0, q8]

theorem pre2 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (r : Fin 1000000) (n : Fin 32) :
    val_main_v48 (F := Ideal) x0 x1 x2 x3 x4 (ix2 r n)
      = dense (fun k : Fin 64 => val_main_v28 (F := Ideal) x0 x1 x2 (ix2 r k)) (fun k : Fin 64 => sW (x3 (ix2 k n))) (sW (x4 (ix1 n))) := by
  rw [val_main_v48_apply, Ideal.addf_def, val_main_v37_apply, val_main_v47_apply, val_main_v46_apply, bidx47, q45]
  unfold dense
  refine congrArg₂ (· + ·) (Finset.sum_congr rfl fun k _ => ?_) rfl
  rw [lidx37, ridx37, q36]

theorem pre3 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (r : Fin 1000000) (n : Fin 32) :
    val_main_v76 (F := Ideal) x0 x1 x2 x3 x4 x5 x6 (ix2 r n)
      = dense (fun k : Fin 32 => val_main_v56 (F := Ideal) x0 x1 x2 x3 x4 (ix2 r k)) (fun k : Fin 32 => sW (x5 (ix2 k n))) (sW (x6 (ix1 n))) := by
  rw [val_main_v76_apply, Ideal.addf_def, val_main_v65_apply, val_main_v75_apply, val_main_v74_apply, bidx75, q73]
  unfold dense
  refine congrArg₂ (· + ·) (Finset.sum_congr rfl fun k _ => ?_) rfl
  rw [lidx65, ridx65, q64]

theorem pre4 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x5, .f32⟩ : BufTy).Contents (Elt Ideal)) (x8 : (⟨S5, .f32⟩ : BufTy).Contents (Elt Ideal)) (r : Fin 1000000) (j : Fin 5) :
    val_main_v88 (F := Ideal) x0 x1 x2 x3 x4 x5 x6 x7 x8 (ix2 r j)
      = dense (fun k : Fin 32 => val_main_v84 (F := Ideal) x0 x1 x2 x3 x4 x5 x6 (ix2 r k)) (fun k : Fin 32 => x7 (ix2 k j)) (x8 (ix1 j)) := by
  rw [val_main_v88_apply, Ideal.addf_def, val_main_v85_apply, val_main_v87_apply, val_main_v86_apply, bidx87]
  unfold dense
  refine congrArg₂ (· + ·) (Finset.sum_congr rfl fun k _ => ?_) rfl
  rw [lidx85, ridx85]

/-! ## The activations of the three quantized layers, and the result -/

theorem act1 (x0 : (⟨S1000000x16x3, .f32⟩ : BufTy).Contents (Elt Ideal)) (x1 : (⟨S48x64, .f32⟩ : BufTy).Contents (Elt Ideal)) (x2 : (⟨S64, .f32⟩ : BufTy).Contents (Elt Ideal)) (r : Fin 1000000) (n : Fin 64) :
    val_main_v28 (F := Ideal) x0 x1 x2 (ix2 r n)
      = sA (dense (xrow x0 r) (fun k : Fin 48 => sW (x1 (ix2 k n))) (sW (x2 (ix1 n)))) := by
  rw [a28, pre1]

theorem act2 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (r : Fin 1000000) (n : Fin 32) :
    val_main_v56 (F := Ideal) x0 x1 x2 x3 x4 (ix2 r n)
      = sA (dense (fun k1 : Fin 64 => sA (dense (xrow x0 r) (fun k : Fin 48 => sW (x1 (ix2 k k1))) (sW (x2 (ix1 k1)))))
          (fun k : Fin 64 => sW (x3 (ix2 k n))) (sW (x4 (ix1 n)))) := by
  rw [a56, pre2]
  simp only [act1]

theorem act3 (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (r : Fin 1000000) (n : Fin 32) :
    val_main_v84 (F := Ideal) x0 x1 x2 x3 x4 x5 x6 (ix2 r n)
      = sA (dense (fun k2 : Fin 32 => sA (dense (fun k1 : Fin 64 => sA (dense (xrow x0 r) (fun k : Fin 48 => sW (x1 (ix2 k k1))) (sW (x2 (ix1 k1)))))
          (fun k : Fin 64 => sW (x3 (ix2 k k2))) (sW (x4 (ix1 k2)))))
          (fun k : Fin 32 => sW (x5 (ix2 k n))) (sW (x6 (ix1 n)))) := by
  rw [a84, pre3]
  simp only [act2]

/-- The result at `(r, j)` is the specification's output with the straight-through quantizers. -/
theorem ref_apply_ix (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x5, .f32⟩ : BufTy).Contents (Elt Ideal)) (x8 : (⟨S5, .f32⟩ : BufTy).Contents (Elt Ideal)) (r : Fin 1000000) (j : Fin 5) :
    val_main_v88 (F := Ideal) x0 x1 x2 x3 x4 x5 x6 x7 x8 (ix2 r j)
      = Cert.MlpSpec.out sW sA x0 x1 x2 x3 x4 x5 x6 x7 x8 r j := by
  rw [pre4]
  simp only [act3]
  rfl

/-- The reference program's result, read at an index, is the specification with straight-through quantizers. -/
theorem ref_apply (x0 : (⟨S1000000x16x3, .f32⟩ : BufTy).Contents (Elt Ideal)) (x1 : (⟨S48x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x5, .f32⟩ : BufTy).Contents (Elt Ideal)) (x8 : (⟨S5, .f32⟩ : BufTy).Contents (Elt Ideal)) (i : Cert.ReferenceIdeal.S1000000x5.Idx) :
    Cert.ReferenceIdeal.Read.val_main_v88 (F := Ideal) x0 x1 x2 x3 x4 x5 x6 x7 x8 i
      = Cert.MlpSpec.out Cert.MlpSpec.sW Cert.MlpSpec.sA x0 x1 x2 x3 x4 x5 x6 x7 x8 (i 0) (i 1) :=
  (congrArg (val_main_v88 (F := Ideal) x0 x1 x2 x3 x4 x5 x6 x7 x8) (eq_ix2 i)).trans
    (ref_apply_ix x0 x1 x2 x3 x4 x5 x6 x7 x8 (i 0) (i 1))

end Cert.ReferenceIdeal.RefValue

end
-- ==== Proof.FiniteInputs.lean ====
/-
  Every entry of every argument is a real number.

  The precondition computes, for each of the nine arguments, the conjunction over all entries of the
  comparison `|x| < +∞`, and states that the conjunction of the nine results is true. On the extended
  reals `|x| = max x (-x)`, and the bit pattern of `+∞` denotes `⊤`; `max x (-x) < ⊤` fails at both
  `⊥` and `⊤` (there `max x (-x) = ⊤`), so what is left is the coercion of a real number.
-/
import proofs.«124545_j53884659695675_2_alg».proof.Pre_finite_inputs
import proofs.«124545_j53884659695675_2_alg».proof.Proof.LibSteQuant
import Idealize.ShloMosaic.PureOps.Ideal
import Idealize.ShloMosaic.Lib.ReduceAll
import Idealize.ShloMosaic.Lib.Affine

noncomputable section

namespace Cert.FiniteInputs

open Idealize.ShloMosaic
open Cert.Pre_finite_inputs (S_)

/-- The shape of rank 0 has exactly one index. -/
instance subsingleton_S_ : Subsingleton S_.Idx := ⟨fun a b => funext fun d => d.elim0⟩

/-- The pattern `0x7F800000` (sign 0, exponent all ones, significand 0) denotes `+∞`. -/
theorem inf_bits : Ideal.ofBits .f32 0x7F800000#32 = (⊤ : EReal) := by
  simp [Ideal.ofBits, Ideal.ieee]

/-- An extended real whose absolute value `max x (-x)` is below `⊤` is a real number. -/
theorem isReal_of_abs_lt_top (x : EReal) (h : max x (-x) < ⊤) : Cert.SteQuant.IsReal x := by
  induction x using EReal.rec with
  | bot => simp at h
  | coe r => exact ⟨r, rfl⟩
  | top => simp at h

/-- One argument: if the conjunction over all entries of `|x| < +∞` is true, every entry of `x` is real. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, Cert.SteQuant.IsReal (x i) := by
  intro i
  have hi := Host.reduce_andi_all _ _ hr hu j e i
  have hlt : max (x i) (-(x i)) < (⊤ : EReal) := by
    have : Ideal.cmp .olt (max (x i) (-(x i))) (Ideal.ofBits .f32 0x7F800000#32) = 1#1 := hi
    rw [inf_bits] at this
    unfold Ideal.cmp at this
    by_contra hn
    simp [hn] at this
  exact isReal_of_abs_lt_top _ hlt

/-- The precondition decoded: every entry of each of the nine arguments is a real number. -/
theorem real_of_pre [Cert.Pre_finite_inputs.Facts]
    (x0 : FVec Ideal Cert.Pre_finite_inputs.S1000000x16x3 .f32) (x1 : FVec Ideal Cert.Pre_finite_inputs.S48x64 .f32)
    (x2 : FVec Ideal Cert.Pre_finite_inputs.S64 .f32) (x3 : FVec Ideal Cert.Pre_finite_inputs.S64x32 .f32)
    (x4 : FVec Ideal Cert.Pre_finite_inputs.S32 .f32) (x5 : FVec Ideal Cert.Pre_finite_inputs.S32x32 .f32)
    (x6 : FVec Ideal Cert.Pre_finite_inputs.S32 .f32) (x7 : FVec Ideal Cert.Pre_finite_inputs.S32x5 .f32)
    (x8 : FVec Ideal Cert.Pre_finite_inputs.S5 .f32)
    (h : Cert.Pre_finite_inputs.fn (F := Ideal) x0 x1 x2 x3 x4 x5 x6 x7 x8 = fun _ => 1#1) :
    (∀ i, Cert.SteQuant.IsReal (x0 i)) ∧ (∀ i, Cert.SteQuant.IsReal (x1 i)) ∧ (∀ i, Cert.SteQuant.IsReal (x2 i))
    ∧ (∀ i, Cert.SteQuant.IsReal (x3 i)) ∧ (∀ i, Cert.SteQuant.IsReal (x4 i)) ∧ (∀ i, Cert.SteQuant.IsReal (x5 i))
    ∧ (∀ i, Cert.SteQuant.IsReal (x6 i)) ∧ (∀ i, Cert.SteQuant.IsReal (x7 i)) ∧ (∀ i, Cert.SteQuant.IsReal (x8 i)) := by
  -- the result has one index; read the claim there
  have e := congrFun h (fun a => a.elim0)
  unfold Cert.Pre_finite_inputs.fn Cert.Pre_finite_inputs.fn_part1 Cert.Pre_finite_inputs.fn_part2 at e
  dsimp only at e
  -- the conjunction of the nine results is true exactly when each result is
  simp only [andi, IntOp.andi_eq_one] at e
  obtain ⟨⟨⟨⟨⟨⟨⟨⟨e0, e1⟩, e2⟩, e3⟩, e4⟩, e5⟩, e6⟩, e7⟩, e8⟩ := e
  exact ⟨real_of_all _ _ _ x0 _ e0, real_of_all _ _ _ x1 _ e1, real_of_all _ _ _ x2 _ e2,
    real_of_all _ _ _ x3 _ e3, real_of_all _ _ _ x4 _ e4, real_of_all _ _ _ x5 _ e5,
    real_of_all _ _ _ x6 _ e6, real_of_all _ _ _ x7 _ e7, real_of_all _ _ _ x8 _ e8⟩

end Cert.FiniteInputs

end
-- ==== Proof.lean ====
/-
  Equivalence of a Pallas kernel for a small quantized multilayer perceptron with its jnp reference, on the extended reals.

  Both programs flatten `x[B,16,3]` to `[B,48]` and apply three dense layers whose weights, biases and activations are
  fake-quantized (weights and biases to the grid 1/128 clamped to [-128, 127]/128, activations to the grid 1/256 clamped
  to [0, 255]/256), then a plain dense layer. The kernel quantizes the parameters on the host and runs the four layers
  on blocks of 10000 rows; the reference computes every quantizer through a straight-through estimator,
  `v + (q v − v)`. On the extended reals `v + (q v − v) = q v` needs `v` to be a real number, so the precondition (every
  argument entry finite) is used: the parameters are real, hence each pre-activation, a finite sum of products of
  reals plus a real, is real, and the two programs agree layer by layer.

  The three frames are the generated ones (the reference's is its generated run with the result dropped); the ideal
  pass rewrote nothing, so the kernel's idealization is its own text; the value claim sets the kernel's result array
  (KValue) beside the reference's run read at an index (RefValue) and joins them by the straight-through law (Spec).
-/
import proofs.«124545_j53884659695675_2_alg».proof.Defs
import proofs.«124545_j53884659695675_2_alg».proof.Proof.Gen.Kernel
import proofs.«124545_j53884659695675_2_alg».proof.Proof.Gen.Kernel.Frame
import proofs.«124545_j53884659695675_2_alg».proof.Proof.Gen.KernelIdeal
import proofs.«124545_j53884659695675_2_alg».proof.Proof.Gen.KernelIdeal.Frame
import proofs.«124545_j53884659695675_2_alg».proof.Proof.Gen.KernelIdeal.Value
import proofs.«124545_j53884659695675_2_alg».proof.Proof.Gen.ReferenceIdeal
import proofs.«124545_j53884659695675_2_alg».proof.Proof.Gen.ReferenceIdeal.Run
import proofs.«124545_j53884659695675_2_alg».proof.Proof.Gen.ReferenceIdeal.Read
import proofs.«124545_j53884659695675_2_alg».proof.Proof.Gen.Pre_finite_inputs
import proofs.«124545_j53884659695675_2_alg».proof.Proof.KValue
import proofs.«124545_j53884659695675_2_alg».proof.Proof.RefValue
import proofs.«124545_j53884659695675_2_alg».proof.Proof.FiniteInputs
import Idealize.ShloMosaic.Adequacy
import Idealize.ShloMosaic.Init

noncomputable section

namespace Cert.Proof

open Idealize.ShloMosaic Idealize.ShloMosaic.TcCoe Idealize.SL.Sem Cert.SteQuant Cert.MlpSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both result arrays end at the specification with the plain quantizers of the kernel's argument arrays: the
    kernel's by its value leg, the reference's because its straight-through quantizers act on real numbers only. -/
theorem algebraic : Cert.algebraic_KernelIdeal_ReferenceIdeal := by
  intro m ρ m' ρ' hpre hagree
  refine ⟨fun c => (fun i => out qW qA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨h0, h1, h2, h3, h4, h5, h6, -, -⟩ := Cert.FiniteInputs.real_of_pre _ _ _ _ _ _ _ _ _ (hpre c)
  rw [Cert.ReferenceIdeal.Read.val_main_v88_eq, a0, a1, a2, a3, a4, a5, a6, a7, a8]
  funext i
  rw [Cert.ReferenceIdeal.RefValue.ref_apply]
  exact out_ste_eq _ _ _ _ _ _ _ _ _ h0 h1 h2 h3 h4 h5 h6 (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
